-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288 : Shape := ⟨1, ![524288]⟩
abbrev S524288x128 : Shape := ⟨2, ![524288, 128]⟩
abbrev S512x4 : Shape := ⟨2, ![512, 4]⟩
abbrev S512x128 : Shape := ⟨2, ![512, 128]⟩
abbrev S512 : Shape := ⟨1, ![512]⟩
abbrev S1x128 : Shape := ⟨2, ![1, 128]⟩
abbrev S1 : Shape := ⟨1, ![1]⟩
abbrev S_ : Shape := ⟨0, ![]⟩

class Facts : Prop where
  bcast_S_S524288 : S_.BroadcastsInDim S524288 (![] : Fin 0 → Fin S524288.rank)
  reducesTo_S524288_S_d0 : S524288.ReducesTo [0] S_
  h_S_ : 0 < S_.numel
  bcast_S_S524288x128 : S_.BroadcastsInDim S524288x128 (![] : Fin 0 → Fin S524288x128.rank)
  reducesTo_S524288x128_S_d0_1 : S524288x128.ReducesTo [0, 1] S_
  bcast_S_S512x4 : S_.BroadcastsInDim S512x4 (![] : Fin 0 → Fin S512x4.rank)
  reducesTo_S512x4_S_d0_1 : S512x4.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S512x128 .f32) (main_arg8 : FVec F S512 .f32) (main_arg9 : FVec F S512 .f32) (main_arg10 : FVec F S1x128 .f32) (main_arg11 : FVec F S1 .f32) (main_v33 : IVec S_ 1) : IVec S_ 1 :=
  let main_v34 : FVec F S512x128 .f32 := Host.absf main_arg7
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S1x128 .f32 := Host.absf main_arg10
  let main_cst_18 : FVec F S_ .f32 := constant S_ .f32 0x7F800000#32
  let main_v50 : FVec F S1x128 .f32 := broadcastInDim S1x128 ![] bcast_S_S1x128 main_cst_18
  fn_part3 (F := F) main_arg11 main_v48 main_v49 main_v50

def fn_part1 {F : FTy → Type} [FloatOps F] (main_arg4 : FVec F S524288 .f32) (main_arg5 : FVec F S524288 .f32) (main_arg6 : FVec F S512x4 .f32) (main_arg7 : FVec F S512x128 .f32) (main_arg8 : FVec F S512 .f32) (main_arg9 : FVec F S512 .f32) (main_arg10 : FVec F S1x128 .f32) (main_arg11 : FVec F S1 .f32) (main_v13 : IVec S_ 1) (main_v16 : IVec S524288x128 1) : IVec S_ 1 :=
  let main_c_5 : IVec S_ 1 := constantI S_ 1 1#1
  let main_v17 : IVec S_ 1 := (fun x v => Host.reduce IntOp.andi x v reducesTo_S524288x128_S_d0_1 h_S_) main_v16 main_c_5
  let main_v18 : IVec S_ 1 := andi main_v13 main_v17
  let main_v19 : FVec F S524288 .f32 := Host.absf main_arg4
  let main_cst_6 : FVec F S_ .f32 := constant S_ .f32 0x7F800000#32
  let main_v20 : FVec F S524288 .f32 := broadcastInDim S524288 ![] bcast_S_S524288 main_cst_6
  let main_v21 : IVec S524288 1 := cmpf .olt main_v19 main_v20
  let main_c_7 : IVec S_ 1 := constantI S_ 1 1#1
  let main_v22 : IVec S_ 1 := (fun x v => Host.reduce IntOp.andi x v reducesTo_S524288_S_d0 h_S_) main_v21 main_c_7
  let main_v23 : IVec S_ 1 := andi main_v18 main_v22
  let main_v24 : FVec F S524288 .f32 := Host.absf main_arg5
  let main_cst_8 : FVec F S_ .f32 := constant S_ .f32 0x7F800000#32
  let main_v25 : FVec F S524288 .f32 := broadcastInDim S524288 ![] bcast_S_S524288 main_cst_8
  let main_v26 : IVec S524288 1 := cmpf .olt main_v24 main_v25
  let main_c_9 : IVec S_ 1 := constantI S_ 1 1#1
  let main_v27 : IVec S_ 1 := (fun x v => Host.reduce IntOp.andi x v reducesTo_S524288_S_d0 h_S_) main_v26 main_c_9
  let main_v28 : IVec S_ 1 := andi main_v23 main_v27
  let main_v29 : FVec F S512x4 .f32 := Host.absf main_arg6
  let main_cst_10 : FVec F S_ .f32 := constant S_ .f32 0x7F800000#32
  let main_v30 : FVec F S512x4 .f32 := broadcastInDim S512x4 ![] bcast_S_S512x4 main_cst_10
  let main_v31 : IVec S512x4 1 := cmpf .olt main_v29 main_v30
  let main_c_11 : IVec S_ 1 := constantI S_ 1 1#1
  let main_v32 : IVec S_ 1 := (fun x v => Host.reduce IntOp.andi x v reducesTo_S512x4_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S524288 .f32) (main_arg1 : FVec F S524288 .f32) (main_arg2 : FVec F S524288x128 .f32) (main_arg3 : FVec F S524288x128 .f32) (main_arg4 : FVec F S524288 .f32) (main_arg5 : FVec F S524288 .f32) (main_arg6 : FVec F S512x4 .f32) (main_arg7 : FVec F S512x128 .f32) (main_arg8 : FVec F S512 .f32) (main_arg9 : FVec F S512 .f32) (main_arg10 : FVec F S1x128 .f32) (main_arg11 : FVec F S1 .f32) : IVec S_ 1 :=
  let main_v0 : FVec F S524288 .f32 := Host.absf main_arg0
  let main_cst : FVec F S_ .f32 := constant S_ .f32 0x7F800000#32
  let main_v1 : FVec F S524288 .f32 := broadcastInDim S524288 ![] bcast_S_S524288 main_cst
  let main_v2 : IVec S524288 1 := cmpf .olt main_v0 main_v1
  let main_c : IVec S_ 1 := constantI S_ 1 1#1
  let main_v3 : IVec S_ 1 := (fun x v => Host.reduce IntOp.andi x v reducesTo_S524288_S_d0 h_S_) main_v2 main_c
  let main_v4 : FVec F S524288 .f32 := Host.absf main_arg1
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S524288x128 .f32 := Host.absf main_arg2
  let main_cst_2 : FVec F S_ .f32 := constant S_ .f32 0x7F800000#32
  let main_v10 : FVec F S524288x128 .f32 := broadcastInDim S524288x128 ![] bcast_S_S524288x128 main_cst_2
  let main_v11 : IVec S524288x128 1 := cmpf .olt main_v9 main_v10
  let main_c_3 : IVec S_ 1 := constantI S_ 1 1#1
  let main_v12 : IVec S_ 1 := (fun x v => Host.reduce IntOp.andi x v reducesTo_S524288x128_S_d0_1 h_S_) main_v11 main_c_3
  let main_v13 : IVec S_ 1 := andi main_v8 main_v12
  let main_v14 : FVec F S524288x128 .f32 := Host.absf main_arg3
  let main_cst_4 : FVec F S_ .f32 := constant S_ .f32 0x7F800000#32
  let main_v15 : FVec F S524288x128 .f32 := broadcastInDim S524288x128 ![] bcast_S_S524288x128 main_cst_4
  let main_v16 : IVec S524288x128 1 := cmpf .olt main_v14 main_v15
  fn_part1 (F := F) main_arg4 main_arg5 main_arg6 main_arg7 main_arg8 main_arg9 main_arg10 main_arg11 main_v13 main_v16
-- ==== Kernel.lean ====
abbrev S524288 : Shape := ⟨1, ![524288]⟩
abbrev S524288x128 : Shape := ⟨2, ![524288, 128]⟩
abbrev S512x4 : Shape := ⟨2, ![512, 4]⟩
abbrev S512x128 : Shape := ⟨2, ![512, 128]⟩
abbrev S512 : Shape := ⟨1, ![512]⟩
abbrev S1x128 : Shape := ⟨2, ![1, 128]⟩
abbrev S1 : Shape := ⟨1, ![1]⟩
abbrev S524288x1 : Shape := ⟨2, ![524288, 1]⟩
abbrev S524288x4 : Shape := ⟨2, ![524288, 4]⟩
abbrev S4x512 : Shape := ⟨2, ![4, 512]⟩
abbrev S128x512 : Shape := ⟨2, ![128, 512]⟩
abbrev S1x512 : Shape := ⟨2, ![1, 512]⟩
abbrev S128x1 : Shape := ⟨2, ![128, 1]⟩
abbrev S1x1 : Shape := ⟨2, ![1, 1]⟩
abbrev S2048x4 : Shape := ⟨2, ![2048, 4]⟩
abbrev S2048x128 : Shape := ⟨2, ![2048, 128]⟩
abbrev S2048x1 : Shape := ⟨2, ![2048, 1]⟩
abbrev S2048x512 : Shape := ⟨2, ![2048, 512]⟩

abbrev nBuf : Space → Nat
  | .hbm => 30
  | .vmem => 22
  | .smem => 0
  | _ => 0

abbrev bufTy : (tb : Table) → Fin (tcTables nBuf tb) → BufTy
  | .hbm, ⟨0, _⟩ => ⟨S524288, .f32⟩
  | .hbm, ⟨1, _⟩ => ⟨S524288, .f32⟩
  | .hbm, ⟨2, _⟩ => ⟨S524288x128, .f32⟩
  | .hbm, ⟨3, _⟩ => ⟨S524288x128, .f32⟩
  | .hbm, ⟨4, _⟩ => ⟨S524288, .f32⟩
  | .hbm, ⟨5, _⟩ => ⟨S524288, .f32⟩
  | .hbm, ⟨6, _⟩ => ⟨S512x4, .f32⟩
  | .hbm, ⟨7, _⟩ => ⟨S512x128, .f32⟩
  | .hbm, ⟨8, _⟩ => ⟨S512, .f32⟩
  | .hbm, ⟨9, _⟩ => ⟨S512, .f32⟩
  | .hbm, ⟨10, _⟩ => ⟨S1x128, .f32⟩
  | .hbm, ⟨11, _⟩ => ⟨S1, .f32⟩
  | .hbm, ⟨12, _⟩ => ⟨S524288x1, .f32⟩
  | .hbm, ⟨13, _⟩ => ⟨S524288x1, .f32⟩
  | .hbm, ⟨14, _⟩ => ⟨S524288x1, .f32⟩
  | .hbm, ⟨15, _⟩ => ⟨S524288x1, .f32⟩
  | .hbm, ⟨16, _⟩ => ⟨S524288x4, .f32⟩
  | .hbm, ⟨17, _⟩ => ⟨S524288x1, .f32⟩
  | .hbm, ⟨18, _⟩ => ⟨S4x512, .f32⟩
  | .hbm, ⟨19, _⟩ => ⟨S128x512, .f32⟩
  | .hbm, ⟨20, _⟩ => ⟨S1x512, .f32⟩
  | .hbm, ⟨21, _⟩ => ⟨S1x512, .f32⟩
  | .hbm, ⟨22, _⟩ => ⟨S128x1, .f32⟩
  | .hbm, ⟨23, _⟩ => ⟨S1x1, .f32⟩
  | .hbm, ⟨24, _⟩ => ⟨S524288x1, .f32⟩
  | .hbm, ⟨25, _⟩ => ⟨S524288x128, .f32⟩
  | .hbm, ⟨26, _⟩ => ⟨S524288x128, .f32⟩
  | .hbm, ⟨27, _⟩ => ⟨S524288x1, .f32⟩
  | .hbm, ⟨28, _⟩ => ⟨S524288, .f32⟩
  | .hbm, ⟨29, _⟩ => ⟨S524288, .f32⟩
  | .local _ .vmem, ⟨0, _⟩ => ⟨S2048x4, .f32⟩
  | .local _ .vmem, ⟨1, _⟩ => ⟨S2048x4, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x1, .f32⟩
  | .local _ .vmem, ⟨7, _⟩ => ⟨S2048x1, .f32⟩
  | .local _ .vmem, ⟨8, _⟩ => ⟨S4x512, .f32⟩
  | .local _ .vmem, ⟨9, _⟩ => ⟨S128x512, .f32⟩
  | .local _ .vmem, ⟨10, _⟩ => ⟨S1x512, .f32⟩
  | .local _ .vmem, ⟨11, _⟩ => ⟨S1x512, .f32⟩
  | .local _ .vmem, ⟨12, _⟩ => ⟨S128x1, .f32⟩
  | .local _ .vmem, ⟨13, _⟩ => ⟨S1x1, .f32⟩
  | .local _ .vmem, ⟨14, _⟩ => ⟨S2048x1, .f32⟩
  | .local _ .vmem, ⟨15, _⟩ => ⟨S2048x1, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x1, .f32⟩
  | .local _ .vmem, ⟨21, _⟩ => ⟨S2048x1, .f32⟩
  | _, _ => ⟨S524288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S524288_S524288x1_0 : S524288.BroadcastsInDim S524288x1 (![0] : Fin 1 → Fin S524288x1.rank)
  concatenates_S524288x1_S524288x1_S524288x1_S524288x1_S524288x4_d1 : Shape.Concatenates [S524288x1, S524288x1, S524288x1, S524288x1] S524288x4 1
  shapeCasts_S524288_S524288x1 : S524288.ShapeCasts S524288x1
  transposes_S512x4_S4x512_1_0 : S512x4.Transposes [1, 0] S4x512
  transposes_S512x128_S128x512_1_0 : S512x128.Transposes [1, 0] S128x512
  shapeCasts_S512_S1x512 : S512.ShapeCasts S1x512
  transposes_S1x128_S128x1_1_0 : S1x128.Transposes [1, 0] S128x1
  shapeCasts_S1_S1x1 : S1.ShapeCasts S1x1
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  inb_S2048x128_S2048x128_0_0 : ∀ a, (![0, 0] : Fin 2 → Nat) a + S2048x128.size a ≤ S2048x128.size a
  h_S2048x128 : 0 < S2048x128.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  bitsLt_bf16_f32 : FTy.bits .bf16 < FTy.bits .f32
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  broadcasts_S1x1_S2048x1 : S1x1.Broadcasts S2048x1
  shapeCasts_S524288x1_S524288 : S524288x1.ShapeCasts S524288
  dot_S2048x4_S4x512_S2048x512_1_0_0_1_n_n_wf : DotDims.WF S2048x4 S4x512 S2048x512 [1] [0] [0] [1] [] []
  dot_S2048x128_S128x512_S2048x512_1_0_0_1_n_n_wf : DotDims.WF S2048x128 S128x512 S2048x512 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S524288x4.size a
  hwx0_0 : ∀ i : grid0.Coords, EltTy.bits .f32 = 32 ∨ (Rect.block (s := S524288x4) S2048x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S524288x128.size a
  hwx0_1 : ∀ i : grid0.Coords, EltTy.bits .f32 = 32 ∨ (Rect.block (s := S524288x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S524288x128.size a
  hwx0_2 : ∀ i : grid0.Coords, EltTy.bits .f32 = 32 ∨ (Rect.block (s := S524288x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S524288x1.size a
  hwx0_3 : ∀ i : grid0.Coords, EltTy.bits .f32 = 32 ∨ (Rect.block (s := S524288x1) S2048x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x512.size a ≤ S4x512.size a
  hwx0_4 : ∀ i : grid0.Coords, EltTy.bits .f32 = 32 ∨ (Rect.block (s := S4x512) S4x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .f32 = 32 ∨ (Rect.block (s := S128x512) S128x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .f32 = 32 ∨ (Rect.block (s := S128x1) S128x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x1.size a ≤ S524288x1.size a
  hwx0_10 : ∀ i : grid0.Coords, EltTy.bits .f32 = 32 ∨ (Rect.block (s := S524288x1) S2048x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x128.size a ≤ S524288x128.size a
  hwx0_11 : ∀ i : grid0.Coords, EltTy.bits .f32 = 32 ∨ (Rect.block (s := S524288x128) S2048x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x128.size a ≤ S524288x128.size a
  hwx0_12 : ∀ i : grid0.Coords, EltTy.bits .f32 = 32 ∨ (Rect.block (s := S524288x128) S2048x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x1.size a ≤ S524288x1.size a
  hwx0_13 : ∀ i : grid0.Coords, EltTy.bits .f32 = 32 ∨ (Rect.block (s := S524288x1) S2048x1.size (cc0_transform_13 i) (hinb0_13 i)).WholeWords (EltTy.packing .f32)

variable [Facts₀]

def dot_S2048x4_S4x512_S2048x512_1_0_0_1_n_n : DotDims S2048x4 S4x512 S2048x512 where
  lhsContracting := [1]
  rhsContracting := [0]
  lhsNonContracting := [0]
  rhsNonContracting := [1]
  lhsBatch := []
  rhsBatch := []
  wf := dot_S2048x4_S4x512_S2048x512_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_v4) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12_0) S2048x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12_1) S2048x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12_2) S2048x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v12_3) S2048x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S524288 : Shape := ⟨1, ![524288]⟩
abbrev S524288x128 : Shape := ⟨2, ![524288, 128]⟩
abbrev S512x4 : Shape := ⟨2, ![512, 4]⟩
abbrev S512x128 : Shape := ⟨2, ![512, 128]⟩
abbrev S512 : Shape := ⟨1, ![512]⟩
abbrev S1x128 : Shape := ⟨2, ![1, 128]⟩
abbrev S1 : Shape := ⟨1, ![1]⟩
abbrev S524288x1 : Shape := ⟨2, ![524288, 1]⟩
abbrev S524288x4 : Shape := ⟨2, ![524288, 4]⟩
abbrev S4x512 : Shape := ⟨2, ![4, 512]⟩
abbrev S524288x512 : Shape := ⟨2, ![524288, 512]⟩
abbrev S1x512 : Shape := ⟨2, ![1, 512]⟩
abbrev S128x512 : Shape := ⟨2, ![128, 512]⟩
abbrev S_ : Shape := ⟨0, ![]⟩
abbrev S128x1 : Shape := ⟨2, ![128, 1]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S524288, .f32⟩
  | .hbm, ⟨1, _⟩ => ⟨S524288, .f32⟩
  | .hbm, ⟨2, _⟩ => ⟨S524288x128, .f32⟩
  | .hbm, ⟨3, _⟩ => ⟨S524288x128, .f32⟩
  | .hbm, ⟨4, _⟩ => ⟨S524288, .f32⟩
  | .hbm, ⟨5, _⟩ => ⟨S524288, .f32⟩
  | .hbm, ⟨6, _⟩ => ⟨S512x4, .f32⟩
  | .hbm, ⟨7, _⟩ => ⟨S512x128, .f32⟩
  | .hbm, ⟨8, _⟩ => ⟨S512, .f32⟩
  | .hbm, ⟨9, _⟩ => ⟨S512, .f32⟩
  | .hbm, ⟨10, _⟩ => ⟨S1x128, .f32⟩
  | .hbm, ⟨11, _⟩ => ⟨S1, .f32⟩
  | .hbm, ⟨12, _⟩ => ⟨S524288x1, .f32⟩
  | .hbm, ⟨13, _⟩ => ⟨S524288x1, .f32⟩
  | .hbm, ⟨14, _⟩ => ⟨S524288x1, .f32⟩
  | .hbm, ⟨15, _⟩ => ⟨S524288x1, .f32⟩
  | .hbm, ⟨16, _⟩ => ⟨S524288x4, .f32⟩
  | .hbm, ⟨17, _⟩ => ⟨S4x512, .f32⟩
  | .hbm, ⟨18, _⟩ => ⟨S524288x512, .f32⟩
  | .hbm, ⟨19, _⟩ => ⟨S1x512, .f32⟩
  | .hbm, ⟨20, _⟩ => ⟨S524288x512, .f32⟩
  | .hbm, ⟨21, _⟩ => ⟨S524288x512, .f32⟩
  | .hbm, ⟨22, _⟩ => ⟨S128x512, .f32⟩
  | .hbm, ⟨23, _⟩ => ⟨S524288x512, .f32⟩
  | .hbm, ⟨24, _⟩ => ⟨S524288x512, .f32⟩
  | .hbm, ⟨25, _⟩ => ⟨S1x512, .f32⟩
  | .hbm, ⟨26, _⟩ => ⟨S524288x512, .f32⟩
  | .hbm, ⟨27, _⟩ => ⟨S524288x512, .f32⟩
  | .hbm, ⟨28, _⟩ => ⟨S524288x128, .f32⟩
  | .hbm, ⟨29, _⟩ => ⟨S524288x128, .f32⟩
  | .hbm, ⟨30, _⟩ => ⟨S524288x128, .f32⟩
  | .hbm, ⟨31, _⟩ => ⟨S524288x128, .f32⟩
  | .hbm, ⟨32, _⟩ => ⟨S524288x128, .f32⟩
  | .hbm, ⟨33, _⟩ => ⟨S524288x128, .f32⟩
  | .hbm, ⟨34, _⟩ => ⟨S_, .f32⟩
  | .hbm, ⟨35, _⟩ => ⟨S524288x128, .f32⟩
  | .hbm, ⟨36, _⟩ => ⟨S524288x128, .f32⟩
  | .hbm, ⟨37, _⟩ => ⟨S_, .f32⟩
  | .hbm, ⟨38, _⟩ => ⟨S524288x128, .f32⟩
  | .hbm, ⟨39, _⟩ => ⟨S524288x128, .f32⟩
  | .hbm, ⟨40, _⟩ => ⟨S524288x128, .f32⟩
  | .hbm, ⟨41, _⟩ => ⟨S524288x128, .f32⟩
  | .hbm, ⟨42, _⟩ => ⟨S_, .f32⟩
  | .hbm, ⟨43, _⟩ => ⟨S524288x128, .f32⟩
  | .hbm, ⟨44, _⟩ => ⟨S524288x128, .f32⟩
  | .hbm, ⟨45, _⟩ => ⟨S_, .f32⟩
  | .hbm, ⟨46, _⟩ => ⟨S524288x128, .f32⟩
  | .hbm, ⟨47, _⟩ => ⟨S524288x128, .f32⟩
  | .hbm, ⟨48, _⟩ => ⟨S524288x128, .f32⟩
  | .hbm, ⟨49, _⟩ => ⟨S524288x128, .f32⟩
  | .hbm, ⟨50, _⟩ => ⟨S524288x128, .f32⟩
  | .hbm, ⟨51, _⟩ => ⟨S_, .f32⟩
  | .hbm, ⟨52, _⟩ => ⟨S524288x128, .f32⟩
  | .hbm, ⟨53, _⟩ => ⟨S524288x128, .f32⟩
  | .hbm, ⟨54, _⟩ => ⟨S_, .f32⟩
  | .hbm, ⟨55, _⟩ => ⟨S524288x128, .f32⟩
  | .hbm, ⟨56, _⟩ => ⟨S524288x128, .f32⟩
  | .hbm, ⟨57, _⟩ => ⟨S524288x128, .f32⟩
  | .hbm, ⟨58, _⟩ => ⟨S524288x128, .f32⟩
  | .hbm, ⟨59, _⟩ => ⟨S524288x128, .f32⟩
  | .hbm, ⟨60, _⟩ => ⟨S524288x128, .f32⟩
  | .hbm, ⟨61, _⟩ => ⟨S524288x128, .f32⟩
  | .hbm, ⟨62, _⟩ => ⟨S128x1, .f32⟩
  | .hbm, ⟨63, _⟩ => ⟨S524288x1, .f32⟩
  | .hbm, ⟨64, _⟩ => ⟨S1x1, .f32⟩
  | .hbm, ⟨65, _⟩ => ⟨S524288x1, .f32⟩
  | .hbm, ⟨66, _⟩ => ⟨S524288x1, .f32⟩
  | .hbm, ⟨67, _⟩ => ⟨S524288, .f32⟩
  | .hbm, ⟨68, _⟩ => ⟨S_, .f32⟩
  | .hbm, ⟨69, _⟩ => ⟨S524288, .f32⟩
  | .hbm, ⟨70, _⟩ => ⟨S524288, .f32⟩
  | .hbm, ⟨71, _⟩ => ⟨S524288, .f32⟩
  | _, _ => ⟨S524288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  bcast_S524288_S524288x1_0 : S524288.BroadcastsInDim S524288x1 (![0] : Fin 1 → Fin S524288x1.rank)
  concatenates_S524288x1_S524288x1_S524288x1_S524288x1_S524288x4_d1 : Shape.Concatenates [S524288x1, S524288x1, S524288x1, S524288x1] S524288x4 1
  transposes_S512x4_S4x512_1_0 : S512x4.Transposes [1, 0] S4x512
  bcast_S512_S1x512_1 : S512.BroadcastsInDim S1x512 (![1] : Fin 1 → Fin S1x512.rank)
  bcast_S1x512_S524288x512_0_1 : S1x512.BroadcastsInDim S524288x512 (![0, 1] : Fin 2 → Fin S524288x512.rank)
  transposes_S512x128_S128x512_1_0 : S512x128.Transposes [1, 0] S128x512
  slices_S524288x512_S524288x128_0_0 : S524288x512.Slices ![0, 0] S524288x128
  slices_S524288x512_S524288x128_0_128 : S524288x512.Slices ![0, 128] S524288x128
  slices_S524288x512_S524288x128_0_256 : S524288x512.Slices ![0, 256] S524288x128
  slices_S524288x512_S524288x128_0_384 : S524288x512.Slices ![0, 384] S524288x128
  bcast_S_S524288x128 : S_.BroadcastsInDim S524288x128 (![] : Fin 0 → Fin S524288x128.rank)
  transposes_S1x128_S128x1_1_0 : S1x128.Transposes [1, 0] S128x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  shapeCasts_S524288x1_S524288 : S524288x1.ShapeCasts S524288
  bcast_S_S524288 : S_.BroadcastsInDim S524288 (![] : Fin 0 → Fin S524288.rank)
  dot_S524288x4_S4x512_S524288x512_1_0_0_1_n_n_wf : DotDims.WF S524288x4 S4x512 S524288x512 [1] [0] [0] [1] [] []
  dot_S524288x128_S128x512_S524288x512_1_0_0_1_n_n_wf : DotDims.WF S524288x128 S128x512 S524288x512 [1] [0] [0] [1] [] []
  dot_S524288x128_S128x1_S524288x1_1_0_0_1_n_n_wf : DotDims.WF S524288x128 S128x1 S524288x1 [1] [0] [0] [1] [] []

variable [Facts₀]

def dot_S524288x4_S4x512_S524288x512_1_0_0_1_n_n : DotDims S524288x4 S4x512 S524288x512 where
  lhsContracting := [1]
  rhsContracting := [0]
  lhsNonContracting := [0]
  rhsNonContracting := [1]
  lhsBatch := []
  rhsBatch := []
  wf := dot_S524288x4_S4x512_S524288x512_1_0_0_1_n_n_wf
def dot_S524288x128_S128x512_S524288x512_1_0_0_1_n_n : DotDims S524288x128 S128x512 S524288x512 where
  lhsContracting := [1]
  rhsContracting := [0]
  lhsNonContracting := [0]
  rhsNonContracting := [1]
  lhsBatch := []
  rhsBatch := []
  wf := dot_S524288x128_S128x512_S524288x512_1_0_0_1_n_n_wf
def dot_S524288x128_S128x1_S524288x1_1_0_0_1_n_n : DotDims S524288x128 S128x1 S524288x1 where
  lhsContracting := [1]
  rhsContracting := [0]
  lhsNonContracting := [0]
  rhsNonContracting := [1]
  lhsBatch := []
  rhsBatch := []
  wf := dot_S524288x128_S128x1_S524288x1_1_0_0_1_n_n_wf

class Facts : Prop extends Facts₀ where

variable [Facts]
-- ==== Proof.RegionRunWords.lean ====
/-
  The run of the gridded region inside @main, for any float instance.

  @main is: twelve host lines (four column views of the per-parameter vectors joined side by side
  into the N×4 input, a column view of the momentum, the three weight transposes, the bias and head-bias
  reshapes), the region over 256 row blocks of 2048 rows, and two host lines flattening the N×1 update
  and momentum columns.  At each grid point the body reads its ten input blocks whole, and stores each
  of its four output blocks whole, so what an output buffer holds after the body is one function
  (`cell*`) of the ten input blocks at that point.  From that: the proof data of the pipeline, the
  body's triple, the run of @main around the region, and the argument arrays left as they were.
-/
import proofs.«130702_j19447611916789_1_alg».proof.Proof.Gen.Kernel.Launch
import proofs.«130702_j19447611916789_1_alg».proof.Proof.Gen.Kernel.Skeleton
import proofs.«130702_j19447611916789_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.RegionRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the twelve host lines. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines, the region, and the two flattening lines as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The flattening lines touch only arrays of the pipeline and buffers that bypass it, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline: each writes its own flat result. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.reshape_writes, Finset.mem_singleton] <;> exact StableHlo.devRef_ne_of_ne (by decide)

/-! ## The argument arrays are written by no host line -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-! ## The windows' blocks -/

/-- Window `w`'s block at point `t`: the rows `2048·t … 2048·t + 2047` of a row-blocked array, the whole of a weight. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or kept from the first point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or kept from the first point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or kept from the first point. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or kept from the first point. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or kept from the first point. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or kept from the first point. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or kept from the first point. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or kept from the first point. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or kept from the first point. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or kept from the first point. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end as launched -/

/-- From a run to the library's frame post: an array a window stages as an input keeps its entry contents, every
    other argument is a buffer the pipeline bypasses and no later line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c)⟩) h

/-! ## The body's accesses: every block whole -/

abbrev whole_S2048x4 : Rect S2048x4 := Rect.unit (s := S2048x4) ![0, 0] S2048x4.size inb_S2048x4_S2048x4_0_0
abbrev whole_S2048x128 : Rect S2048x128 := Rect.unit (s := S2048x128) ![0, 0] S2048x128.size inb_S2048x128_S2048x128_0_0
abbrev whole_S2048x1 : Rect S2048x1 := Rect.unit (s := S2048x1) ![0, 0] S2048x1.size inb_S2048x1_S2048x1_0_0
abbrev whole_S4x512 : Rect S4x512 := Rect.unit (s := S4x512) ![0, 0] S4x512.size inb_S4x512_S4x512_0_0
abbrev whole_S128x512 : Rect S128x512 := Rect.unit (s := S128x512) ![0, 0] S128x512.size inb_S128x512_S128x512_0_0
abbrev whole_S1x512 : Rect S1x512 := Rect.unit (s := S1x512) ![0, 0] S1x512.size inb_S1x512_S1x512_0_0
abbrev whole_S128x1 : Rect S128x1 := Rect.unit (s := S128x1) ![0, 0] S128x1.size inb_S128x1_S128x1_0_0
abbrev whole_S1x1 : Rect S1x1 := Rect.unit (s := S1x1) ![0, 0] S1x1.size inb_S1x1_S1x1_0_0

/-! ## What the body leaves in each output buffer -/

/-- The output gate `σ(gates[:, 384:512])` of the block. -/
def gateO (x0 : Vec F S2048x4 .f32) (x1 : Vec F S2048x128 .f32) (x2 : Vec F S2048x128 .f32) (x3 : Vec F S2048x1 .f32) (x4 : Vec F S4x512 .f32) (x5 : Vec F S128x512 .f32) (x6 : Vec F S1x512 .f32) (x7 : Vec F S1x512 .f32) (x8 : Vec F S128x1 .f32) (x9 : Vec F S1x1 .f32) : FVec F S2048x128 .f32 := k0_pay9 (View.ld x0 whole_S2048x4) (View.ld x1 whole_S2048x128) (View.ld x4 whole_S4x512) (View.ld x5 whole_S128x512) (View.ld x6 whole_S1x512) (View.ld x7 whole_S1x512)
/-- The kept part of the cell state, `σ(gates[:, 128:256]) · c`. -/
def keptCell (x0 : Vec F S2048x4 .f32) (x1 : Vec F S2048x128 .f32) (x2 : Vec F S2048x128 .f32) (x3 : Vec F S2048x1 .f32) (x4 : Vec F S4x512 .f32) (x5 : Vec F S128x512 .f32) (x6 : Vec F S1x512 .f32) (x7 : Vec F S1x512 .f32) (x8 : Vec F S128x1 .f32) (x9 : Vec F S1x1 .f32) : FVec F S2048x128 .f32 := k0_pay10 (View.ld x0 whole_S2048x4) (View.ld x1 whole_S2048x128) (View.ld x2 whole_S2048x128) (View.ld x4 whole_S4x512) (View.ld x5 whole_S128x512) (View.ld x6 whole_S1x512) (View.ld x7 whole_S1x512)
/-- The written part of the cell state, `σ(gates[:, 0:128]) · tanh(gates[:, 256:384])`. -/
def newCell (x0 : Vec F S2048x4 .f32) (x1 : Vec F S2048x128 .f32) (x2 : Vec F S2048x128 .f32) (x3 : Vec F S2048x1 .f32) (x4 : Vec F S4x512 .f32) (x5 : Vec F S128x512 .f32) (x6 : Vec F S1x512 .f32) (x7 : Vec F S1x512 .f32) (x8 : Vec F S128x1 .f32) (x9 : Vec F S1x1 .f32) : FVec F S2048x128 .f32 := k0_pay11 (View.ld x0 whole_S2048x4) (View.ld x1 whole_S2048x128) (View.ld x4 whole_S4x512) (View.ld x5 whole_S128x512) (View.ld x6 whole_S1x512) (View.ld x7 whole_S1x512)

/-- The update column: `h_new · w_up + b_up`. -/
def cellUpdate (x0 : Vec F S2048x4 .f32) (x1 : Vec F S2048x128 .f32) (x2 : Vec F S2048x128 .f32) (x3 : Vec F S2048x1 .f32) (x4 : Vec F S4x512 .f32) (x5 : Vec F S128x512 .f32) (x6 : Vec F S1x512 .f32) (x7 : Vec F S1x512 .f32) (x8 : Vec F S128x1 .f32) (x9 : Vec F S1x1 .f32) : Vec F S2048x1 .f32 :=
  View.canon [⟨whole_S2048x1, k0_pay3 (k0_pay6 (View.ld x8 whole_S128x1)) (k0_pay7 (View.ld x9 whole_S1x1)) (gateO x0 x1 x2 x3 x4 x5 x6 x7 x8 x9) (keptCell x0 x1 x2 x3 x4 x5 x6 x7 x8 x9) (newCell x0 x1 x2 x3 x4 x5 x6 x7 x8 x9)⟩]
/-- The new hidden state `o · tanh(c_new)`. -/
def cellHidden (x0 : Vec F S2048x4 .f32) (x1 : Vec F S2048x128 .f32) (x2 : Vec F S2048x128 .f32) (x3 : Vec F S2048x1 .f32) (x4 : Vec F S4x512 .f32) (x5 : Vec F S128x512 .f32) (x6 : Vec F S1x512 .f32) (x7 : Vec F S1x512 .f32) (x8 : Vec F S128x1 .f32) (x9 : Vec F S1x1 .f32) : Vec F S2048x128 .f32 :=
  View.canon [⟨whole_S2048x128, k0_pay2 (gateO x0 x1 x2 x3 x4 x5 x6 x7 x8 x9) (keptCell x0 x1 x2 x3 x4 x5 x6 x7 x8 x9) (newCell x0 x1 x2 x3 x4 x5 x6 x7 x8 x9)⟩]
/-- The new cell state `f · c + i · g`. -/
def cellState (x0 : Vec F S2048x4 .f32) (x1 : Vec F S2048x128 .f32) (x2 : Vec F S2048x128 .f32) (x3 : Vec F S2048x1 .f32) (x4 : Vec F S4x512 .f32) (x5 : Vec F S128x512 .f32) (x6 : Vec F S1x512 .f32) (x7 : Vec F S1x512 .f32) (x8 : Vec F S128x1 .f32) (x9 : Vec F S1x1 .f32) : Vec F S2048x128 .f32 :=
  View.canon [⟨whole_S2048x128, k0_pay1 (keptCell x0 x1 x2 x3 x4 x5 x6 x7 x8 x9) (newCell x0 x1 x2 x3 x4 x5 x6 x7 x8 x9)⟩]
/-- The new momentum column `0.9 · mom + update`. -/
def cellMomentum (x0 : Vec F S2048x4 .f32) (x1 : Vec F S2048x128 .f32) (x2 : Vec F S2048x128 .f32) (x3 : Vec F S2048x1 .f32) (x4 : Vec F S4x512 .f32) (x5 : Vec F S128x512 .f32) (x6 : Vec F S1x512 .f32) (x7 : Vec F S1x512 .f32) (x8 : Vec F S128x1 .f32) (x9 : Vec F S1x1 .f32) : Vec F S2048x1 .f32 :=
  View.canon [⟨whole_S2048x1, k0_pay4 (k0_pay5 (View.ld x3 whole_S2048x1)) (k0_pay6 (View.ld x8 whole_S128x1)) (k0_pay7 (View.ld x9 whole_S1x1)) (gateO x0 x1 x2 x3 x4 x5 x6 x7 x8 x9) (keptCell x0 x1 x2 x3 x4 x5 x6 x7 x8 x9) (newCell x0 x1 x2 x3 x4 x5 x6 x7 x8 x9)⟩]

/-- One whole-block store covers the block. -/
theorem cover_col (p0 : Vec F S2048x1 .f32) (y : S2048x1.Idx) :
    ∃ pc ∈ ([⟨whole_S2048x1, p0⟩] : List (View.Piece (Elt F) S2048x1 .f32)), y ∈ pc.1.set :=
  View.cover_of_tiled [⟨whole_S2048x1, p0⟩] S2048x1.size (by rfl) y
theorem cover_mat (p0 : Vec F S2048x128 .f32) (y : S2048x128.Idx) :
    ∃ pc ∈ ([⟨whole_S2048x128, p0⟩] : List (View.Piece (Elt F) S2048x128 .f32)), y ∈ pc.1.set :=
  View.cover_of_tiled [⟨whole_S2048x128, p0⟩] S2048x128.size (by rfl) y

/-! ## The body's triple -/

set_option maxHeartbeats 4000000 in
/-- On whole staging buffers, the inputs at contents `x0 … x9` and the outputs at anything, the body runs to its end
    with the inputs as they were and the four outputs at `cellUpdate`, `cellHidden`, `cellState`, `cellMomentum`. -/
theorem sound_kernel (c : Dev nD) (E : Set ℕ) (i : grid0.Coords) (arg1 : Memref sig .tc .vmem S2048x4 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S4x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x1 .f32) (harg9 : arg9.IsWhole) (arg10 : Memref sig .tc .vmem S1x1 .f32) (harg10 : arg10.IsWhole) (arg11 : Memref sig .tc .vmem S2048x1 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x1 .f32) (harg14 : arg14.IsWhole)
    (x0 : Vec F S2048x4 .f32) (x1 : Vec F S2048x128 .f32) (x2 : Vec F S2048x128 .f32) (x3 : Vec F S2048x1 .f32) (x4 : Vec F S4x512 .f32) (x5 : Vec F S128x512 .f32) (x6 : Vec F S1x512 .f32) (x7 : Vec F S1x512 .f32) (x8 : Vec F S128x1 .f32) (x9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (cellUpdate x0 x1 x2 x3 x4 x5 x6 x7 x8 x9) ∗ owns (c : Thread nD τ) arg12 fullShare (cellHidden x0 x1 x2 x3 x4 x5 x6 x7 x8 x9) ∗ owns (c : Thread nD τ) arg13 fullShare (cellState x0 x1 x2 x3 x4 x5 x6 x7 x8 x9) ∗ owns (c : Thread nD τ) arg14 fullShare (cellMomentum x0 x1 x2 x3 x4 x5 x6 x7 x8 x9)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover_col _)
  isplitl [H11]
  · iexists _; isplitr
    swap; · iexact H11
    ipureintro
    try dsimp only
    exact View.read_writes_eq_canon _ _ _ (cover_mat _)
  isplitl [H12]
  · iexists _; isplitr
    swap; · iexact H12
    ipureintro
    try dsimp only
    exact View.read_writes_eq_canon _ _ _ (cover_mat _)
  iexists _; isplitr
  swap; · iexact H13
  ipureintro
  try dsimp only
  exact View.read_writes_eq_canon _ _ _ (cover_col _)

/-! ## The pipeline's proof data -/

/-- On core `c`: the arrays as the region finds them; after the body at point `t` each input buffer still at its block
    and each output buffer at its `cell*` of the ten input blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => cellUpdate (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => cellHidden (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => cellState (iblk m c 0 t) (iblk m c 1 t) (iblk m c 2 t) (iblk m c 3 t) (iblk m c 4 t) (iblk m c 5 t) (iblk m c 6 t) (iblk m c 7 t) (iblk m c 8 t) (iblk m c 9 t)
    | ⟨13, _⟩ => cellMomentum (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = cellUpdate (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after11 (c : Dev nD) (t : Fin cfg0.N) : (dats m 0 c).after 11 t = cellHidden (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after12 (c : Dev nD) (t : Fin cfg0.N) : (dats m 0 c).after 12 t = cellState (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after13 (c : Dev nD) (t : Fin cfg0.N) : (dats m 0 c).after 13 t = cellMomentum (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- At any point the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, with each array of the pipeline at what the write-backs leave and
    every other buffer as the two flattening lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: @main runs to its end and the twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.RegionRun

end
-- ==== Proof.RegionRunIdeal.lean ====
/-
  The run of the gridded region inside @main, for any float instance.

  @main is: twelve host lines (four column views of the per-parameter vectors joined side by side
  into the N×4 input, a column view of the momentum, the three weight transposes, the bias and head-bias
  reshapes), the region over 256 row blocks of 2048 rows, and two host lines flattening the N×1 update
  and momentum columns.  At each grid point the body reads its ten input blocks whole, and stores each
  of its four output blocks whole, so what an output buffer holds after the body is one function
  (`cell*`) of the ten input blocks at that point.  From that: the proof data of the pipeline, the
  body's triple, the run of @main around the region, and the argument arrays left as they were.
-/
import proofs.«130702_j19447611916789_1_alg».proof.Proof.Gen.KernelIdeal.Launch
import proofs.«130702_j19447611916789_1_alg».proof.Proof.Gen.KernelIdeal.Skeleton
import proofs.«130702_j19447611916789_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.RegionRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the twelve host lines. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines, the region, and the two flattening lines as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The flattening lines touch only arrays of the pipeline and buffers that bypass it, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline: each writes its own flat result. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.reshape_writes, Finset.mem_singleton] <;> exact StableHlo.devRef_ne_of_ne (by decide)

/-! ## The argument arrays are written by no host line -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-! ## The windows' blocks -/

/-- Window `w`'s block at point `t`: the rows `2048·t … 2048·t + 2047` of a row-blocked array, the whole of a weight. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or kept from the first point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or kept from the first point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or kept from the first point. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or kept from the first point. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or kept from the first point. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or kept from the first point. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or kept from the first point. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or kept from the first point. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or kept from the first point. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or kept from the first point. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end as launched -/

/-- From a run to the library's frame post: an array a window stages as an input keeps its entry contents, every
    other argument is a buffer the pipeline bypasses and no later line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c)⟩) h

/-! ## The body's accesses: every block whole -/

abbrev whole_S2048x4 : Rect S2048x4 := Rect.unit (s := S2048x4) ![0, 0] S2048x4.size inb_S2048x4_S2048x4_0_0
abbrev whole_S2048x128 : Rect S2048x128 := Rect.unit (s := S2048x128) ![0, 0] S2048x128.size inb_S2048x128_S2048x128_0_0
abbrev whole_S2048x1 : Rect S2048x1 := Rect.unit (s := S2048x1) ![0, 0] S2048x1.size inb_S2048x1_S2048x1_0_0
abbrev whole_S4x512 : Rect S4x512 := Rect.unit (s := S4x512) ![0, 0] S4x512.size inb_S4x512_S4x512_0_0
abbrev whole_S128x512 : Rect S128x512 := Rect.unit (s := S128x512) ![0, 0] S128x512.size inb_S128x512_S128x512_0_0
abbrev whole_S1x512 : Rect S1x512 := Rect.unit (s := S1x512) ![0, 0] S1x512.size inb_S1x512_S1x512_0_0
abbrev whole_S128x1 : Rect S128x1 := Rect.unit (s := S128x1) ![0, 0] S128x1.size inb_S128x1_S128x1_0_0
abbrev whole_S1x1 : Rect S1x1 := Rect.unit (s := S1x1) ![0, 0] S1x1.size inb_S1x1_S1x1_0_0

/-! ## What the body leaves in each output buffer -/

/-- The output gate `σ(gates[:, 384:512])` of the block. -/
def gateO (x0 : Vec F S2048x4 .f32) (x1 : Vec F S2048x128 .f32) (x2 : Vec F S2048x128 .f32) (x3 : Vec F S2048x1 .f32) (x4 : Vec F S4x512 .f32) (x5 : Vec F S128x512 .f32) (x6 : Vec F S1x512 .f32) (x7 : Vec F S1x512 .f32) (x8 : Vec F S128x1 .f32) (x9 : Vec F S1x1 .f32) : FVec F S2048x128 .f32 := k0_pay9 (View.ld x0 whole_S2048x4) (View.ld x1 whole_S2048x128) (View.ld x4 whole_S4x512) (View.ld x5 whole_S128x512) (View.ld x6 whole_S1x512) (View.ld x7 whole_S1x512)
/-- The kept part of the cell state, `σ(gates[:, 128:256]) · c`. -/
def keptCell (x0 : Vec F S2048x4 .f32) (x1 : Vec F S2048x128 .f32) (x2 : Vec F S2048x128 .f32) (x3 : Vec F S2048x1 .f32) (x4 : Vec F S4x512 .f32) (x5 : Vec F S128x512 .f32) (x6 : Vec F S1x512 .f32) (x7 : Vec F S1x512 .f32) (x8 : Vec F S128x1 .f32) (x9 : Vec F S1x1 .f32) : FVec F S2048x128 .f32 := k0_pay10 (View.ld x0 whole_S2048x4) (View.ld x1 whole_S2048x128) (View.ld x2 whole_S2048x128) (View.ld x4 whole_S4x512) (View.ld x5 whole_S128x512) (View.ld x6 whole_S1x512) (View.ld x7 whole_S1x512)
/-- The written part of the cell state, `σ(gates[:, 0:128]) · tanh(gates[:, 256:384])`. -/
def newCell (x0 : Vec F S2048x4 .f32) (x1 : Vec F S2048x128 .f32) (x2 : Vec F S2048x128 .f32) (x3 : Vec F S2048x1 .f32) (x4 : Vec F S4x512 .f32) (x5 : Vec F S128x512 .f32) (x6 : Vec F S1x512 .f32) (x7 : Vec F S1x512 .f32) (x8 : Vec F S128x1 .f32) (x9 : Vec F S1x1 .f32) : FVec F S2048x128 .f32 := k0_pay11 (View.ld x0 whole_S2048x4) (View.ld x1 whole_S2048x128) (View.ld x4 whole_S4x512) (View.ld x5 whole_S128x512) (View.ld x6 whole_S1x512) (View.ld x7 whole_S1x512)

/-- The update column: `h_new · w_up + b_up`. -/
def cellUpdate (x0 : Vec F S2048x4 .f32) (x1 : Vec F S2048x128 .f32) (x2 : Vec F S2048x128 .f32) (x3 : Vec F S2048x1 .f32) (x4 : Vec F S4x512 .f32) (x5 : Vec F S128x512 .f32) (x6 : Vec F S1x512 .f32) (x7 : Vec F S1x512 .f32) (x8 : Vec F S128x1 .f32) (x9 : Vec F S1x1 .f32) : Vec F S2048x1 .f32 :=
  View.canon [⟨whole_S2048x1, k0_pay3 (k0_pay6 (View.ld x8 whole_S128x1)) (k0_pay7 (View.ld x9 whole_S1x1)) (gateO x0 x1 x2 x3 x4 x5 x6 x7 x8 x9) (keptCell x0 x1 x2 x3 x4 x5 x6 x7 x8 x9) (newCell x0 x1 x2 x3 x4 x5 x6 x7 x8 x9)⟩]
/-- The new hidden state `o · tanh(c_new)`. -/
def cellHidden (x0 : Vec F S2048x4 .f32) (x1 : Vec F S2048x128 .f32) (x2 : Vec F S2048x128 .f32) (x3 : Vec F S2048x1 .f32) (x4 : Vec F S4x512 .f32) (x5 : Vec F S128x512 .f32) (x6 : Vec F S1x512 .f32) (x7 : Vec F S1x512 .f32) (x8 : Vec F S128x1 .f32) (x9 : Vec F S1x1 .f32) : Vec F S2048x128 .f32 :=
  View.canon [⟨whole_S2048x128, k0_pay2 (gateO x0 x1 x2 x3 x4 x5 x6 x7 x8 x9) (keptCell x0 x1 x2 x3 x4 x5 x6 x7 x8 x9) (newCell x0 x1 x2 x3 x4 x5 x6 x7 x8 x9)⟩]
/-- The new cell state `f · c + i · g`. -/
def cellState (x0 : Vec F S2048x4 .f32) (x1 : Vec F S2048x128 .f32) (x2 : Vec F S2048x128 .f32) (x3 : Vec F S2048x1 .f32) (x4 : Vec F S4x512 .f32) (x5 : Vec F S128x512 .f32) (x6 : Vec F S1x512 .f32) (x7 : Vec F S1x512 .f32) (x8 : Vec F S128x1 .f32) (x9 : Vec F S1x1 .f32) : Vec F S2048x128 .f32 :=
  View.canon [⟨whole_S2048x128, k0_pay1 (keptCell x0 x1 x2 x3 x4 x5 x6 x7 x8 x9) (newCell x0 x1 x2 x3 x4 x5 x6 x7 x8 x9)⟩]
/-- The new momentum column `0.9 · mom + update`. -/
def cellMomentum (x0 : Vec F S2048x4 .f32) (x1 : Vec F S2048x128 .f32) (x2 : Vec F S2048x128 .f32) (x3 : Vec F S2048x1 .f32) (x4 : Vec F S4x512 .f32) (x5 : Vec F S128x512 .f32) (x6 : Vec F S1x512 .f32) (x7 : Vec F S1x512 .f32) (x8 : Vec F S128x1 .f32) (x9 : Vec F S1x1 .f32) : Vec F S2048x1 .f32 :=
  View.canon [⟨whole_S2048x1, k0_pay4 (k0_pay5 (View.ld x3 whole_S2048x1)) (k0_pay6 (View.ld x8 whole_S128x1)) (k0_pay7 (View.ld x9 whole_S1x1)) (gateO x0 x1 x2 x3 x4 x5 x6 x7 x8 x9) (keptCell x0 x1 x2 x3 x4 x5 x6 x7 x8 x9) (newCell x0 x1 x2 x3 x4 x5 x6 x7 x8 x9)⟩]

/-- One whole-block store covers the block. -/
theorem cover_col (p0 : Vec F S2048x1 .f32) (y : S2048x1.Idx) :
    ∃ pc ∈ ([⟨whole_S2048x1, p0⟩] : List (View.Piece (Elt F) S2048x1 .f32)), y ∈ pc.1.set :=
  View.cover_of_tiled [⟨whole_S2048x1, p0⟩] S2048x1.size (by rfl) y
theorem cover_mat (p0 : Vec F S2048x128 .f32) (y : S2048x128.Idx) :
    ∃ pc ∈ ([⟨whole_S2048x128, p0⟩] : List (View.Piece (Elt F) S2048x128 .f32)), y ∈ pc.1.set :=
  View.cover_of_tiled [⟨whole_S2048x128, p0⟩] S2048x128.size (by rfl) y

/-! ## The body's triple -/

set_option maxHeartbeats 4000000 in
/-- On whole staging buffers, the inputs at contents `x0 … x9` and the outputs at anything, the body runs to its end
    with the inputs as they were and the four outputs at `cellUpdate`, `cellHidden`, `cellState`, `cellMomentum`. -/
theorem sound_kernel (c : Dev nD) (E : Set ℕ) (i : grid0.Coords) (arg1 : Memref sig .tc .vmem S2048x4 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x1 .f32) (harg4 : arg4.IsWhole) (arg5 : Memref sig .tc .vmem S4x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S128x1 .f32) (harg9 : arg9.IsWhole) (arg10 : Memref sig .tc .vmem S1x1 .f32) (harg10 : arg10.IsWhole) (arg11 : Memref sig .tc .vmem S2048x1 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x1 .f32) (harg14 : arg14.IsWhole)
    (x0 : Vec F S2048x4 .f32) (x1 : Vec F S2048x128 .f32) (x2 : Vec F S2048x128 .f32) (x3 : Vec F S2048x1 .f32) (x4 : Vec F S4x512 .f32) (x5 : Vec F S128x512 .f32) (x6 : Vec F S1x512 .f32) (x7 : Vec F S1x512 .f32) (x8 : Vec F S128x1 .f32) (x9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (cellUpdate x0 x1 x2 x3 x4 x5 x6 x7 x8 x9) ∗ owns (c : Thread nD τ) arg12 fullShare (cellHidden x0 x1 x2 x3 x4 x5 x6 x7 x8 x9) ∗ owns (c : Thread nD τ) arg13 fullShare (cellState x0 x1 x2 x3 x4 x5 x6 x7 x8 x9) ∗ owns (c : Thread nD τ) arg14 fullShare (cellMomentum x0 x1 x2 x3 x4 x5 x6 x7 x8 x9)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover_col _)
  isplitl [H11]
  · iexists _; isplitr
    swap; · iexact H11
    ipureintro
    try dsimp only
    exact View.read_writes_eq_canon _ _ _ (cover_mat _)
  isplitl [H12]
  · iexists _; isplitr
    swap; · iexact H12
    ipureintro
    try dsimp only
    exact View.read_writes_eq_canon _ _ _ (cover_mat _)
  iexists _; isplitr
  swap; · iexact H13
  ipureintro
  try dsimp only
  exact View.read_writes_eq_canon _ _ _ (cover_col _)

/-! ## The pipeline's proof data -/

/-- On core `c`: the arrays as the region finds them; after the body at point `t` each input buffer still at its block
    and each output buffer at its `cell*` of the ten input blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => cellUpdate (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => cellHidden (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => cellState (iblk m c 0 t) (iblk m c 1 t) (iblk m c 2 t) (iblk m c 3 t) (iblk m c 4 t) (iblk m c 5 t) (iblk m c 6 t) (iblk m c 7 t) (iblk m c 8 t) (iblk m c 9 t)
    | ⟨13, _⟩ => cellMomentum (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = cellUpdate (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after11 (c : Dev nD) (t : Fin cfg0.N) : (dats m 0 c).after 11 t = cellHidden (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after12 (c : Dev nD) (t : Fin cfg0.N) : (dats m 0 c).after 12 t = cellState (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after13 (c : Dev nD) (t : Fin cfg0.N) : (dats m 0 c).after 13 t = cellMomentum (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- At any point the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, with each array of the pipeline at what the write-backs leave and
    every other buffer as the two flattening lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: @main runs to its end and the twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.RegionRun

end
-- ==== Proof.LstmRow.lean ====
/-
  One row of the LSTM step on the extended reals.

  Every output row of the step depends on the same row of the per-row inputs and on the weights only.  For a
  row with input features `xr` (4 of them), hidden state `hr`, cell state `cr` (128 each), the pre-activations are
  `pre q = Σ_k xr k · wih k q + Σ_k hr k · whh k q + bih q + bhh q` for the 512 gate columns `q`; the four gates are
  the column groups `[0,128)` (input), `[128,256)` (forget), `[256,384)` (candidate) and `[384,512)` (output), and
    c' j = σ(pre (128 + j)) · cr j + σ(pre j) · tanh(pre (256 + j)),      h' j = σ(pre (384 + j)) · tanh(c' j),
    update = Σ_j h' j · wup j + bup,                                       mom' = 0.9f · mom + update,
  with `σ x = 1 / (1 + e^(-x))` and `0.9f` the single-precision word nearest nine tenths.  The two programs add the
  four summands of `pre` in different orders; addition on the extended reals is commutative and associative, so
  the two orders agree (no finiteness is needed).
-/
import Idealize.ShloMosaic.PureOps.Ideal
import Idealize.ShloMosaic.PureOps.Ideal.Laws

noncomputable section

namespace Cert.LstmRow

open Idealize.ShloMosaic

/-- Gate column `o + j` of the 512, for a group offset `o` with `o + 128 ≤ 512`. -/
abbrev col (o : ℕ) (ho : o + 128 ≤ 512) (j : Fin 128) : Fin 512 := ⟨o + j.val, by have := j.isLt; omega⟩

/-- The pre-activations with the two matrix products added first, then the two biases. -/
def preProductsFirst (xr : Fin 4 → EReal) (hr : Fin 128 → EReal) (wih : Fin 4 → Fin 512 → EReal) (whh : Fin 128 → Fin 512 → EReal)
    (bih bhh : Fin 512 → EReal) (q : Fin 512) : EReal :=
  (∑ k, xr k * wih k q) + (∑ k, hr k * whh k q) + bih q + bhh q

/-- The pre-activations with each matrix product followed by its bias. -/
def preBiasInBetween (xr : Fin 4 → EReal) (hr : Fin 128 → EReal) (wih : Fin 4 → Fin 512 → EReal) (whh : Fin 128 → Fin 512 → EReal)
    (bih bhh : Fin 512 → EReal) (q : Fin 512) : EReal :=
  (∑ k, xr k * wih k q) + bih q + (∑ k, hr k * whh k q) + bhh q

/-- The two orders of summation agree. -/
theorem preBiasInBetween_eq (xr : Fin 4 → EReal) (hr : Fin 128 → EReal) (wih : Fin 4 → Fin 512 → EReal) (whh : Fin 128 → Fin 512 → EReal)
    (bih bhh : Fin 512 → EReal) :
    preBiasInBetween xr hr wih whh bih bhh = preProductsFirst xr hr wih whh bih bhh := by
  funext q
  unfold preBiasInBetween preProductsFirst
  rw [add_right_comm (∑ k, xr k * wih k q) (bih q)]

/-- The new cell state of the row at hidden unit `j`. -/
def cellNew (pre : Fin 512 → EReal) (cr : Fin 128 → EReal) (j : Fin 128) : EReal :=
  Ideal.logistic (pre (col 128 (by omega) j)) * cr j + Ideal.logistic (pre (col 0 (by omega) j)) * Ideal.tanh (pre (col 256 (by omega) j))

/-- The new hidden state of the row at hidden unit `j`. -/
def hiddenNew (pre : Fin 512 → EReal) (cr : Fin 128 → EReal) (j : Fin 128) : EReal :=
  Ideal.logistic (pre (col 384 (by omega) j)) * Ideal.tanh (cellNew pre cr j)

/-- The row's update: the head applied to the new hidden state. -/
def update (pre : Fin 512 → EReal) (cr : Fin 128 → EReal) (wup : Fin 128 → EReal) (bup : EReal) : EReal :=
  (∑ j, hiddenNew pre cr j * wup j) + bup

/-- The row's new momentum. -/
def momentumNew (pre : Fin 512 → EReal) (cr : Fin 128 → EReal) (wup : Fin 128 → EReal) (bup : EReal) (mom : EReal) : EReal :=
  Ideal.ofBits .f32 0x3F666666#32 * mom + update pre cr wup bup

end Cert.LstmRow

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.KernelRows.lean ====
/-
  The kernel body's four stored blocks, row by row.

  With the ten input blocks of a grid point as `x0 … x9` (the 2048×4 features, the 2048×128 hidden and cell
  states, the 2048×1 momentum column, the transposed weights 4×512 and 128×512, the two 1×512 bias rows, the
  128×1 head column and the 1×1 head bias), row `p` of each stored block is the LSTM row function of row `p` of
  the per-row inputs: the two matrix products into zero accumulators are sums over the contracted index, the
  narrowing of the second product's operands changes nothing on the extended reals, the bias rows are repeated
  down the rows, and the four gates are the four column groups of the 2048×512 pre-activations.
-/
import proofs.«130702_j19447611916789_1_alg».proof.Proof.RegionRunIdeal
import proofs.«130702_j19447611916789_1_alg».proof.Proof.LstmRow
import proofs.«130702_j19447611916789_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Cert.KernelIdeal Cert.KernelIdeal.Gen Cert.KernelIdeal.RegionRun Cert.LstmRow
open Idealize.ShloMosaic Idealize.ShloMosaic.ValueIdx

theorem hz : (![0, 0] : Fin 2 → Nat) = fun _ => 0 := funext fun a => by fin_cases a <;> rfl

variable (x0 : FVec Ideal S2048x4 .f32) (x1 x2 : FVec Ideal S2048x128 .f32) (x3 : FVec Ideal S2048x1 .f32)
  (x4 : FVec Ideal S4x512 .f32) (x5 : FVec Ideal S128x512 .f32) (x6 x7 : FVec Ideal S1x512 .f32)
  (x8 : FVec Ideal S128x1 .f32) (x9 : FVec Ideal S1x1 .f32)

/-- Row `p`'s pre-activations as the kernel adds them. -/
def pre (p : Fin 2048) : Fin 512 → EReal :=
  preProductsFirst (fun k => x0 (ix2 p k)) (fun k => x1 (ix2 p k)) (fun k q => x4 (ix2 k q)) (fun k q => x5 (ix2 k q))
    (fun q => x6 (ix2 (0 : Fin 1) q)) (fun q => x7 (ix2 (0 : Fin 1) q))

/-- The 2048×512 pre-activations of the block at `(p, q)`. -/
theorem gates_at (p : Fin 2048) (q : Fin 512) :
    k0_pay8 (F := Ideal) x0 x1 x4 x5 x6 x7 (ix2 p q) = pre x0 x1 x4 x5 x6 x7 p q := by
  unfold k0_pay8
  simp only [shapeCast_self]
  show FloatOps.addf (FloatOps.addf (FloatOps.addf
      (FloatOps.matmul dot_S2048x4_S4x512_S2048x512_1_0_0_1_n_n none x0 x4 (constant S2048x512 .f32 0x00000000#32) (ix2 p q))
      (FloatOps.matmul dot_S2048x128_S128x512_S2048x512_1_0_0_1_n_n none (truncf .bf16 x1 bitsLt_bf16_f32) (truncf .bf16 x5 bitsLt_bf16_f32) (constant S2048x512 .f32 0x00000000#32) (ix2 p q)))
      (broadcastTo S2048x512 x6 broadcasts_S1x512_S2048x512 (ix2 p q)))
      (broadcastTo S2048x512 x7 broadcasts_S1x512_S2048x512 (ix2 p q)) = _
  rw [Cert.Lib.PlainMatmul.matmul_zero_apply _ rfl rfl rfl rfl rfl rfl none x0 x4 p q,
    Cert.Lib.PlainMatmul.matmul_zero_apply _ rfl rfl rfl rfl rfl rfl none (truncf .bf16 x1 bitsLt_bf16_f32) (truncf .bf16 x5 bitsLt_bf16_f32) p q,
    broadcastTo_1b_ab_apply x6 broadcasts_S1x512_S2048x512 p q, broadcastTo_1b_ab_apply x7 broadcasts_S1x512_S2048x512 p q]
  rfl

/-- A group of 128 gate columns from column `o` on, read at `(p, j)`: column `o + j`. -/
theorem slice_at (o : ℕ) (ho : o + 128 ≤ 512) (h : S2048x512.Slices ![0, o] S2048x128) (G : FVec Ideal S2048x512 .f32)
    (p : Fin 2048) (j : Fin 128) :
    extractStridedSlice S2048x128 ![0, o] G h (ix2 p j) = G (ix2 p (col o ho j)) :=
  extractStridedSlice_apply _ G h _ _ (fun a => match a with
    | ⟨0, _⟩ => (Nat.zero_add _).symm
    | ⟨1, _⟩ => rfl)

/-! Pointwise operations at an index, on the extended reals. -/
theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl
theorem mulf_at {s : Shape} (a b : FVec Ideal s .f32) (i : s.Idx) : mulf a b i = a i * b i := rfl
theorem addf_at {s : Shape} (a b : FVec Ideal s .f32) (i : s.Idx) : addf a b i = a i + b i := rfl

/-! The payloads as the operations they are. -/
theorem gateO_eq : gateO (F := Ideal) x0 x1 x2 x3 x4 x5 x6 x7 x8 x9
    = logistic (extractStridedSlice S2048x128 ![0, 384] (k0_pay8 x0 x1 x4 x5 x6 x7) slices_S2048x512_o0_384_S2048x128) := by
  unfold gateO k0_pay9
  simp only [View.ld_unit_zero (S := S2048x4) hz, View.ld_unit_zero (S := S2048x128) hz, View.ld_unit_zero (S := S2048x1) hz, View.ld_unit_zero (S := S4x512) hz, View.ld_unit_zero (S := S128x512) hz, View.ld_unit_zero (S := S1x512) hz, View.ld_unit_zero (S := S128x1) hz, View.ld_unit_zero (S := S1x1) hz]
theorem keptCell_eq : keptCell (F := Ideal) x0 x1 x2 x3 x4 x5 x6 x7 x8 x9
    = mulf (logistic (extractStridedSlice S2048x128 ![0, 128] (k0_pay8 x0 x1 x4 x5 x6 x7) slices_S2048x512_o0_128_S2048x128)) x2 := by
  unfold keptCell k0_pay10
  simp only [View.ld_unit_zero (S := S2048x4) hz, View.ld_unit_zero (S := S2048x128) hz, View.ld_unit_zero (S := S2048x1) hz, View.ld_unit_zero (S := S4x512) hz, View.ld_unit_zero (S := S128x512) hz, View.ld_unit_zero (S := S1x512) hz, View.ld_unit_zero (S := S128x1) hz, View.ld_unit_zero (S := S1x1) hz]
theorem newCell_eq : newCell (F := Ideal) x0 x1 x2 x3 x4 x5 x6 x7 x8 x9
    = mulf (logistic (extractStridedSlice S2048x128 ![0, 0] (k0_pay8 x0 x1 x4 x5 x6 x7) slices_S2048x512_o0_0_S2048x128))
        (tanh (extractStridedSlice S2048x128 ![0, 256] (k0_pay8 x0 x1 x4 x5 x6 x7) slices_S2048x512_o0_256_S2048x128)) := by
  unfold newCell k0_pay11
  simp only [View.ld_unit_zero (S := S2048x4) hz, View.ld_unit_zero (S := S2048x128) hz, View.ld_unit_zero (S := S2048x1) hz, View.ld_unit_zero (S := S4x512) hz, View.ld_unit_zero (S := S128x512) hz, View.ld_unit_zero (S := S1x512) hz, View.ld_unit_zero (S := S128x1) hz, View.ld_unit_zero (S := S1x1) hz]

/-- A gate column group of the pre-activations at `(p, j)`. -/
theorem group_at (o : ℕ) (ho : o + 128 ≤ 512) (h : S2048x512.Slices ![0, o] S2048x128) (p : Fin 2048) (j : Fin 128) :
    extractStridedSlice S2048x128 ![0, o] (k0_pay8 (F := Ideal) x0 x1 x4 x5 x6 x7) h (ix2 p j) = pre x0 x1 x4 x5 x6 x7 p (col o ho j) :=
  (slice_at o ho h (k0_pay8 x0 x1 x4 x5 x6 x7) p j).trans (gates_at x0 x1 x4 x5 x6 x7 p (col o ho j))

/-- The output gate at `(p, j)`. -/
theorem gateO_at (p : Fin 2048) (j : Fin 128) :
    gateO (F := Ideal) x0 x1 x2 x3 x4 x5 x6 x7 x8 x9 (ix2 p j) = Ideal.logistic ((pre x0 x1 x4 x5 x6 x7 p) (col 384 (by omega) j)) := by
  rw [gateO_eq, logistic_at, group_at x0 x1 x4 x5 x6 x7 384 (by omega)]

/-- The kept part of the cell state at `(p, j)`. -/
theorem keptCell_at (p : Fin 2048) (j : Fin 128) :
    keptCell (F := Ideal) x0 x1 x2 x3 x4 x5 x6 x7 x8 x9 (ix2 p j) = Ideal.logistic ((pre x0 x1 x4 x5 x6 x7 p) (col 128 (by omega) j)) * x2 (ix2 p j) := by
  rw [keptCell_eq, mulf_at, logistic_at, group_at x0 x1 x4 x5 x6 x7 128 (by omega)]

/-- The written part of the cell state at `(p, j)`. -/
theorem newCell_at (p : Fin 2048) (j : Fin 128) :
    newCell (F := Ideal) x0 x1 x2 x3 x4 x5 x6 x7 x8 x9 (ix2 p j)
      = Ideal.logistic ((pre x0 x1 x4 x5 x6 x7 p) (col 0 (by omega) j)) * Ideal.tanh ((pre x0 x1 x4 x5 x6 x7 p) (col 256 (by omega) j)) := by
  rw [newCell_eq, mulf_at, logistic_at, tanh_at, group_at x0 x1 x4 x5 x6 x7 0 (by omega), group_at x0 x1 x4 x5 x6 x7 256 (by omega)]

/-- The new cell state's payload at `(p, j)`. -/
theorem statePayload_at (p : Fin 2048) (j : Fin 128) :
    k0_pay1 (F := Ideal) (keptCell x0 x1 x2 x3 x4 x5 x6 x7 x8 x9) (newCell x0 x1 x2 x3 x4 x5 x6 x7 x8 x9) (ix2 p j) = cellNew (pre x0 x1 x4 x5 x6 x7 p) (fun j => x2 (ix2 p j)) j := by
  rw [show k0_pay1 (F := Ideal) (keptCell x0 x1 x2 x3 x4 x5 x6 x7 x8 x9) (newCell x0 x1 x2 x3 x4 x5 x6 x7 x8 x9) = addf (keptCell x0 x1 x2 x3 x4 x5 x6 x7 x8 x9) (newCell x0 x1 x2 x3 x4 x5 x6 x7 x8 x9) from rfl, addf_at, keptCell_at, newCell_at]
  rfl

/-- The new hidden state's payload at `(p, j)`. -/
theorem hiddenPayload_at (p : Fin 2048) (j : Fin 128) :
    k0_pay2 (F := Ideal) (gateO x0 x1 x2 x3 x4 x5 x6 x7 x8 x9) (keptCell x0 x1 x2 x3 x4 x5 x6 x7 x8 x9) (newCell x0 x1 x2 x3 x4 x5 x6 x7 x8 x9) (ix2 p j) = hiddenNew (pre x0 x1 x4 x5 x6 x7 p) (fun j => x2 (ix2 p j)) j := by
  rw [show k0_pay2 (F := Ideal) (gateO x0 x1 x2 x3 x4 x5 x6 x7 x8 x9) (keptCell x0 x1 x2 x3 x4 x5 x6 x7 x8 x9) (newCell x0 x1 x2 x3 x4 x5 x6 x7 x8 x9) = mulf (gateO x0 x1 x2 x3 x4 x5 x6 x7 x8 x9) (tanh (k0_pay1 (F := Ideal) (keptCell x0 x1 x2 x3 x4 x5 x6 x7 x8 x9) (newCell x0 x1 x2 x3 x4 x5 x6 x7 x8 x9))) from rfl,
    mulf_at, tanh_at, gateO_at, statePayload_at]
  rfl

/-- The update column's payload at `(p, u)`. -/
theorem updatePayload_at (p : Fin 2048) (u : Fin 1) :
    k0_pay3 (F := Ideal) (k0_pay6 x8) (k0_pay7 x9) (gateO x0 x1 x2 x3 x4 x5 x6 x7 x8 x9) (keptCell x0 x1 x2 x3 x4 x5 x6 x7 x8 x9) (newCell x0 x1 x2 x3 x4 x5 x6 x7 x8 x9) (ix2 p u)
      = update (pre x0 x1 x4 x5 x6 x7 p) (fun j => x2 (ix2 p j)) (fun j => x8 (ix2 j u)) (x9 (ix2 (0 : Fin 1) u)) := by
  have e : k0_pay3 (F := Ideal) (k0_pay6 x8) (k0_pay7 x9) (gateO x0 x1 x2 x3 x4 x5 x6 x7 x8 x9) (keptCell x0 x1 x2 x3 x4 x5 x6 x7 x8 x9) (newCell x0 x1 x2 x3 x4 x5 x6 x7 x8 x9)
      = addf (matmul dot_S2048x128_S128x1_S2048x1_1_0_0_1_n_n none (k0_pay2 (F := Ideal) (gateO x0 x1 x2 x3 x4 x5 x6 x7 x8 x9) (keptCell x0 x1 x2 x3 x4 x5 x6 x7 x8 x9) (newCell x0 x1 x2 x3 x4 x5 x6 x7 x8 x9)) x8 (constant S2048x1 .f32 0x00000000#32))
          (broadcastTo S2048x1 x9 broadcasts_S1x1_S2048x1) := by
    unfold k0_pay3 k0_pay6 k0_pay7
    simp only [shapeCast_self]
  rw [e, addf_at]
  refine (congrArg₂ (· + ·) (Cert.Lib.PlainMatmul.matmul_zero_apply _ rfl rfl rfl rfl rfl rfl none (k0_pay2 (F := Ideal) (gateO x0 x1 x2 x3 x4 x5 x6 x7 x8 x9) (keptCell x0 x1 x2 x3 x4 x5 x6 x7 x8 x9) (newCell x0 x1 x2 x3 x4 x5 x6 x7 x8 x9)) x8 p u)
    (broadcastTo_1b_ab_apply x9 broadcasts_S1x1_S2048x1 p u)).trans ?_
  unfold update
  refine congrArg₂ (· + ·) (Finset.sum_congr rfl fun k _ => ?_) rfl
  rw [hiddenPayload_at]

/-- The stored new cell state at `(p, j)`. -/
theorem state_at (p : Fin 2048) (j : Fin 128) :
    cellState (F := Ideal) x0 x1 x2 x3 x4 x5 x6 x7 x8 x9 (ix2 p j) = cellNew (pre x0 x1 x4 x5 x6 x7 p) (fun j => x2 (ix2 p j)) j := by
  unfold cellState
  rw [View.canon_unit_zero hz]
  exact statePayload_at x0 x1 x2 x3 x4 x5 x6 x7 x8 x9 p j

/-- The stored new hidden state at `(p, j)`. -/
theorem hidden_at (p : Fin 2048) (j : Fin 128) :
    cellHidden (F := Ideal) x0 x1 x2 x3 x4 x5 x6 x7 x8 x9 (ix2 p j) = hiddenNew (pre x0 x1 x4 x5 x6 x7 p) (fun j => x2 (ix2 p j)) j := by
  unfold cellHidden
  rw [View.canon_unit_zero hz]
  exact hiddenPayload_at x0 x1 x2 x3 x4 x5 x6 x7 x8 x9 p j

/-- The stored update column at `(p, u)`. -/
theorem update_at (p : Fin 2048) (u : Fin 1) :
    cellUpdate (F := Ideal) x0 x1 x2 x3 x4 x5 x6 x7 x8 x9 (ix2 p u)
      = update (pre x0 x1 x4 x5 x6 x7 p) (fun j => x2 (ix2 p j)) (fun j => x8 (ix2 j u)) (x9 (ix2 (0 : Fin 1) u)) := by
  unfold cellUpdate
  rw [View.canon_unit_zero hz]
  simp only [View.ld_unit_zero (S := S2048x4) hz, View.ld_unit_zero (S := S2048x128) hz, View.ld_unit_zero (S := S2048x1) hz, View.ld_unit_zero (S := S4x512) hz, View.ld_unit_zero (S := S128x512) hz, View.ld_unit_zero (S := S1x512) hz, View.ld_unit_zero (S := S128x1) hz, View.ld_unit_zero (S := S1x1) hz]
  exact updatePayload_at x0 x1 x2 x3 x4 x5 x6 x7 x8 x9 p u

/-- The stored momentum column at `(p, u)`. -/
theorem momentum_at (p : Fin 2048) (u : Fin 1) :
    cellMomentum (F := Ideal) x0 x1 x2 x3 x4 x5 x6 x7 x8 x9 (ix2 p u)
      = momentumNew (pre x0 x1 x4 x5 x6 x7 p) (fun j => x2 (ix2 p j)) (fun j => x8 (ix2 j u)) (x9 (ix2 (0 : Fin 1) u)) (x3 (ix2 p u)) := by
  unfold cellMomentum
  rw [View.canon_unit_zero hz]
  simp only [View.ld_unit_zero (S := S2048x4) hz, View.ld_unit_zero (S := S2048x128) hz, View.ld_unit_zero (S := S2048x1) hz, View.ld_unit_zero (S := S4x512) hz, View.ld_unit_zero (S := S128x512) hz, View.ld_unit_zero (S := S1x512) hz, View.ld_unit_zero (S := S128x1) hz, View.ld_unit_zero (S := S1x1) hz]
  have e : k0_pay4 (F := Ideal) (k0_pay5 x3) (k0_pay6 x8) (k0_pay7 x9) (gateO x0 x1 x2 x3 x4 x5 x6 x7 x8 x9) (keptCell x0 x1 x2 x3 x4 x5 x6 x7 x8 x9) (newCell x0 x1 x2 x3 x4 x5 x6 x7 x8 x9)
      = addf (mulf (broadcast S2048x1 (Scalar.ofBits (F := Ideal) .f32 0x3F666666#32)) x3)
          (k0_pay3 (F := Ideal) (k0_pay6 x8) (k0_pay7 x9) (gateO x0 x1 x2 x3 x4 x5 x6 x7 x8 x9) (keptCell x0 x1 x2 x3 x4 x5 x6 x7 x8 x9) (newCell x0 x1 x2 x3 x4 x5 x6 x7 x8 x9)) := by
    unfold k0_pay4 k0_pay5
    simp only [shapeCast_self]
  rw [e, addf_at, mulf_at, updatePayload_at]
  rfl

end Cert.KernelIdeal.Rows

end
-- ==== Proof.LstmArrays.lean ====
/-
  The step over all N = 524288 rows: each result array as one function of the input arrays, row by row.

  `X` is the N×4 feature matrix, `H` and `C` the N×128 hidden and cell states, `M` the momentum vector; the weights
  are stored untransposed (`Wih` 512×4, `Whh` 512×128, `Wup` 1×128), so row `r`'s pre-activation at gate column
  `q` contracts `X r ·` with `Wih q ·` and `H r ·` with `Whh q ·`.  Row `r` of every result is the row function of
  `LstmRow` applied to row `r` of the inputs.
-/
import proofs.«130702_j19447611916789_1_alg».proof.Proof.LstmRow
import Idealize.ShloMosaic.Lib.ValueIdx

noncomputable section

namespace Cert.LstmArrays

open Cert.LstmRow Idealize.ShloMosaic Idealize.ShloMosaic.ValueIdx

variable (X : (⟨2, ![524288, 4]⟩ : Shape).Idx → EReal) (H C : (⟨2, ![524288, 128]⟩ : Shape).Idx → EReal)
  (M : (⟨1, ![524288]⟩ : Shape).Idx → EReal) (Wih : (⟨2, ![512, 4]⟩ : Shape).Idx → EReal)
  (Whh : (⟨2, ![512, 128]⟩ : Shape).Idx → EReal) (Bih Bhh : (⟨1, ![512]⟩ : Shape).Idx → EReal)
  (Wup : (⟨2, ![1, 128]⟩ : Shape).Idx → EReal) (Bup : (⟨1, ![1]⟩ : Shape).Idx → EReal)

/-- Row `r`'s pre-activations. -/
def pre (r : Fin 524288) : Fin 512 → EReal :=
  preProductsFirst (fun k => X (ix2 r k)) (fun k => H (ix2 r k)) (fun k q => Wih (ix2 q k)) (fun k q => Whh (ix2 q k))
    (fun q => Bih (ix1 q)) (fun q => Bhh (ix1 q))

/-- The new cell state, N×128. -/
def cellArr (r : Fin 524288) (j : Fin 128) : EReal := cellNew (pre X H Wih Whh Bih Bhh r) (fun j => C (ix2 r j)) j

/-- The new hidden state, N×128. -/
def hiddenArr (r : Fin 524288) (j : Fin 128) : EReal := hiddenNew (pre X H Wih Whh Bih Bhh r) (fun j => C (ix2 r j)) j

/-- The update, one per row. -/
def updateAt (r : Fin 524288) : EReal :=
  update (pre X H Wih Whh Bih Bhh r) (fun j => C (ix2 r j)) (fun j => Wup (ix2 (0 : Fin 1) j)) (Bup (ix1 (0 : Fin 1)))

/-- The new momentum, one per row. -/
def momentumAt (r : Fin 524288) : EReal :=
  momentumNew (pre X H Wih Whh Bih Bhh r) (fun j => C (ix2 r j)) (fun j => Wup (ix2 (0 : Fin 1) j)) (Bup (ix1 (0 : Fin 1))) (M (ix1 r))

end Cert.LstmArrays

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.ArraysIdeal.lean ====
/-
  The four result arrays after the run, as functions of the argument arrays.

  The region finds, besides the hidden and cell states themselves: the N×4 feature matrix (the four per-row
  vectors side by side), the momentum as a column, the three weights transposed, the two biases as rows and the
  head bias as a 1×1 matrix.  Block `t` of a row-blocked array is its rows `2048·t … 2048·t + 2047`; the weights'
  only block is the whole array.  So the block point `t` writes back to each output is the rows `2048·t …` of the
  whole-array function of `LstmArrays`, the 256 blocks tile the rows, and each output array ends as that
  function.  The two flattening lines then read the update and momentum columns as vectors.
-/
import proofs.«130702_j19447611916789_1_alg».proof.Proof.RegionRunIdeal
import proofs.«130702_j19447611916789_1_alg».proof.Proof.KernelRows
import proofs.«130702_j19447611916789_1_alg».proof.Proof.LstmArrays
import Idealize.ShloMosaic.Lib.Pipeline.Value
import Idealize.ShloMosaic.Lib.StableHlo.Run
import Idealize.ShloMosaic.Lib.ValueLayout
import proofs.«130702_j19447611916789_1_alg».proof.Proof.LibColumnLayout

set_option maxRecDepth 16384

noncomputable section

namespace Cert.KernelIdeal.Arrays

open Cert.KernelIdeal Cert.KernelIdeal.Gen Cert.KernelIdeal.RegionRun Cert.LstmRow
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## What the region finds -/

/-- The N×4 feature matrix: gradient, parameter, momentum, previous update, each as a column, side by side. -/
def features (a0 a1 a4 a5 : (⟨S524288, .f32⟩ : BufTy).Contents (Elt Ideal)) : (⟨S524288x4, .f32⟩ : BufTy).Contents (Elt Ideal) :=
  concatenate S524288x4 1 [⟨S524288x1, broadcastInDim S524288x1 ![0] bcast_S524288_S524288x1_0 a1⟩,
    ⟨S524288x1, broadcastInDim S524288x1 ![0] bcast_S524288_S524288x1_0 a0⟩,
    ⟨S524288x1, broadcastInDim S524288x1 ![0] bcast_S524288_S524288x1_0 a4⟩,
    ⟨S524288x1, broadcastInDim S524288x1 ![0] bcast_S524288_S524288x1_0 a5⟩]
    concatenates_S524288x1_S524288x1_S524288x1_S524288x1_S524288x4_d1

theorem found_features (c : Dev nD) : (V m c main_v4 : S524288x4.Idx → EReal)
    = features (m ((c : Thread nD τ).loc main_arg0)) (m ((c : Thread nD τ).loc main_arg1)) (m ((c : Thread nD τ).loc main_arg4)) (m ((c : Thread nD τ).loc main_arg5)) := by
  show StableHlo.after hostOps0 (fun b => m (c, b)) (Proc.devRef .tc main_v4) = _
  after_results <;> rfl
theorem found_momentum (c : Dev nD) : (V m c main_v5 : S524288x1.Idx → EReal)
    = shapeCast S524288x1 (m ((c : Thread nD τ).loc main_arg4)) shapeCasts_S524288_S524288x1 := by
  show StableHlo.after hostOps0 (fun b => m (c, b)) (Proc.devRef .tc main_v5) = _
  after_results <;> rfl
theorem found_wih (c : Dev nD) : (V m c main_v6 : S4x512.Idx → EReal)
    = transpose S4x512 [1, 0] (m ((c : Thread nD τ).loc main_arg6)) transposes_S512x4_S4x512_1_0 := by
  show StableHlo.after hostOps0 (fun b => m (c, b)) (Proc.devRef .tc main_v6) = _
  after_results <;> rfl
theorem found_whh (c : Dev nD) : (V m c main_v7 : S128x512.Idx → EReal)
    = transpose S128x512 [1, 0] (m ((c : Thread nD τ).loc main_arg7)) transposes_S512x128_S128x512_1_0 := by
  show StableHlo.after hostOps0 (fun b => m (c, b)) (Proc.devRef .tc main_v7) = _
  after_results <;> rfl
theorem found_bih (c : Dev nD) : (V m c main_v8 : S1x512.Idx → EReal)
    = shapeCast S1x512 (m ((c : Thread nD τ).loc main_arg8)) shapeCasts_S512_S1x512 := by
  show StableHlo.after hostOps0 (fun b => m (c, b)) (Proc.devRef .tc main_v8) = _
  after_results <;> rfl
theorem found_bhh (c : Dev nD) : (V m c main_v9 : S1x512.Idx → EReal)
    = shapeCast S1x512 (m ((c : Thread nD τ).loc main_arg9)) shapeCasts_S512_S1x512 := by
  show StableHlo.after hostOps0 (fun b => m (c, b)) (Proc.devRef .tc main_v9) = _
  after_results <;> rfl
theorem found_wup (c : Dev nD) : (V m c main_v10 : S128x1.Idx → EReal)
    = transpose S128x1 [1, 0] (m ((c : Thread nD τ).loc main_arg10)) transposes_S1x128_S128x1_1_0 := by
  show StableHlo.after hostOps0 (fun b => m (c, b)) (Proc.devRef .tc main_v10) = _
  after_results <;> rfl
theorem found_bup (c : Dev nD) : (V m c main_v11 : S1x1.Idx → EReal)
    = shapeCast S1x1 (m ((c : Thread nD τ).loc main_arg11)) shapeCasts_S1_S1x1 := by
  show StableHlo.after hostOps0 (fun b => m (c, b)) (Proc.devRef .tc main_v11) = _
  after_results <;> rfl

/-! ## Where a block sits -/

/-- The printed index maps over the 256 points: a row-blocked window is at block row `t`, a weight at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- Row `p` of block `t` is row `2048·t + p` of the array. -/
def row (t : Fin cfg0.N) (p : Fin 2048) : Fin 524288 :=
  ⟨t.val * 2048 + p.val, by have h : t.val < 256 := lt_of_lt_of_eq t.isLt N_0; have := p.isLt; omega⟩

theorem block0 (c : Dev nD) (t : Fin cfg0.N) (p : Fin 2048) (k : Fin 4) :
    iblk m c 0 t (ix2 p k) = V m c main_v4 (ix2 (row t p) k) := by
  show V m c main_v4 (((cfg0.win 0).blk t).view.emb (ix2 p k)) = V m c main_v4 (ix2 (row t p) k)
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  refine congrArg (V m c main_v4) (funext fun a => Fin.ext ?_)
  match a with
  | ⟨0, _⟩ => show win0_0.index t (0 : Fin 2) * 2048 + 1 * p.val = t.val * 2048 + p.val; omega
  | ⟨1, _⟩ => show win0_0.index t (1 : Fin 2) * 4 + 1 * k.val = k.val; omega
theorem block1 (c : Dev nD) (t : Fin cfg0.N) (p : Fin 2048) (k : Fin 128) :
    iblk m c 1 t (ix2 p k) = V m c main_arg2 (ix2 (row t p) k) := by
  show V m c main_arg2 (((cfg0.win 1).blk t).view.emb (ix2 p k)) = V m c main_arg2 (ix2 (row t p) k)
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  refine congrArg (V m c main_arg2) (funext fun a => Fin.ext ?_)
  match a with
  | ⟨0, _⟩ => show win0_1.index t (0 : Fin 2) * 2048 + 1 * p.val = t.val * 2048 + p.val; omega
  | ⟨1, _⟩ => show win0_1.index t (1 : Fin 2) * 128 + 1 * k.val = k.val; omega
theorem block2 (c : Dev nD) (t : Fin cfg0.N) (p : Fin 2048) (k : Fin 128) :
    iblk m c 2 t (ix2 p k) = V m c main_arg3 (ix2 (row t p) k) := by
  show V m c main_arg3 (((cfg0.win 2).blk t).view.emb (ix2 p k)) = V m c main_arg3 (ix2 (row t p) k)
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  refine congrArg (V m c main_arg3) (funext fun a => Fin.ext ?_)
  match a with
  | ⟨0, _⟩ => show win0_2.index t (0 : Fin 2) * 2048 + 1 * p.val = t.val * 2048 + p.val; omega
  | ⟨1, _⟩ => show win0_2.index t (1 : Fin 2) * 128 + 1 * k.val = k.val; omega
theorem block3 (c : Dev nD) (t : Fin cfg0.N) (p : Fin 2048) (k : Fin 1) :
    iblk m c 3 t (ix2 p k) = V m c main_v5 (ix2 (row t p) k) := by
  show V m c main_v5 (((cfg0.win 3).blk t).view.emb (ix2 p k)) = V m c main_v5 (ix2 (row t p) k)
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  refine congrArg (V m c main_v5) (funext fun a => Fin.ext ?_)
  match a with
  | ⟨0, _⟩ => show win0_3.index t (0 : Fin 2) * 2048 + 1 * p.val = t.val * 2048 + p.val; omega
  | ⟨1, _⟩ => show win0_3.index t (1 : Fin 2) * 1 + 1 * k.val = k.val; omega
theorem block4 (c : Dev nD) (t : Fin cfg0.N) (p : Fin 4) (k : Fin 512) :
    iblk m c 4 t (ix2 p k) = V m c main_v6 (ix2 p k) := by
  show V m c main_v6 (((cfg0.win 4).blk t).view.emb (ix2 p k)) = V m c main_v6 (ix2 p k)
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  refine congrArg (V m c main_v6) (funext fun a => Fin.ext ?_)
  match a with
  | ⟨0, _⟩ => show win0_4.index t (0 : Fin 2) * 4 + 1 * p.val = p.val; omega
  | ⟨1, _⟩ => show win0_4.index t (1 : Fin 2) * 512 + 1 * k.val = k.val; omega
theorem block5 (c : Dev nD) (t : Fin cfg0.N) (p : Fin 128) (k : Fin 512) :
    iblk m c 5 t (ix2 p k) = V m c main_v7 (ix2 p k) := by
  show V m c main_v7 (((cfg0.win 5).blk t).view.emb (ix2 p k)) = V m c main_v7 (ix2 p k)
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  refine congrArg (V m c main_v7) (funext fun a => Fin.ext ?_)
  match a with
  | ⟨0, _⟩ => show win0_5.index t (0 : Fin 2) * 128 + 1 * p.val = p.val; omega
  | ⟨1, _⟩ => show win0_5.index t (1 : Fin 2) * 512 + 1 * k.val = k.val; omega
theorem block6 (c : Dev nD) (t : Fin cfg0.N) (p : Fin 1) (k : Fin 512) :
    iblk m c 6 t (ix2 p k) = V m c main_v8 (ix2 p k) := by
  show V m c main_v8 (((cfg0.win 6).blk t).view.emb (ix2 p k)) = V m c main_v8 (ix2 p k)
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  refine congrArg (V m c main_v8) (funext fun a => Fin.ext ?_)
  match a with
  | ⟨0, _⟩ => show win0_6.index t (0 : Fin 2) * 1 + 1 * p.val = p.val; omega
  | ⟨1, _⟩ => show win0_6.index t (1 : Fin 2) * 512 + 1 * k.val = k.val; omega
theorem block7 (c : Dev nD) (t : Fin cfg0.N) (p : Fin 1) (k : Fin 512) :
    iblk m c 7 t (ix2 p k) = V m c main_v9 (ix2 p k) := by
  show V m c main_v9 (((cfg0.win 7).blk t).view.emb (ix2 p k)) = V m c main_v9 (ix2 p k)
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  refine congrArg (V m c main_v9) (funext fun a => Fin.ext ?_)
  match a with
  | ⟨0, _⟩ => show win0_7.index t (0 : Fin 2) * 1 + 1 * p.val = p.val; omega
  | ⟨1, _⟩ => show win0_7.index t (1 : Fin 2) * 512 + 1 * k.val = k.val; omega
theorem block8 (c : Dev nD) (t : Fin cfg0.N) (p : Fin 128) (k : Fin 1) :
    iblk m c 8 t (ix2 p k) = V m c main_v10 (ix2 p k) := by
  show V m c main_v10 (((cfg0.win 8).blk t).view.emb (ix2 p k)) = V m c main_v10 (ix2 p k)
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  refine congrArg (V m c main_v10) (funext fun a => Fin.ext ?_)
  match a with
  | ⟨0, _⟩ => show win0_8.index t (0 : Fin 2) * 128 + 1 * p.val = p.val; omega
  | ⟨1, _⟩ => show win0_8.index t (1 : Fin 2) * 1 + 1 * k.val = k.val; omega
theorem block9 (c : Dev nD) (t : Fin cfg0.N) (p : Fin 1) (k : Fin 1) :
    iblk m c 9 t (ix2 p k) = V m c main_v11 (ix2 p k) := by
  show V m c main_v11 (((cfg0.win 9).blk t).view.emb (ix2 p k)) = V m c main_v11 (ix2 p k)
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  refine congrArg (V m c main_v11) (funext fun a => Fin.ext ?_)
  match a with
  | ⟨0, _⟩ => show win0_9.index t (0 : Fin 2) * 1 + 1 * p.val = p.val; omega
  | ⟨1, _⟩ => show win0_9.index t (1 : Fin 2) * 1 + 1 * k.val = k.val; omega

/-! ## Rows of the blocks are rows of the arrays -/

theorem pre_eq (c : Dev nD) (t : Fin cfg0.N) (p : Fin 2048) :
    (Rows.pre (iblk m c 0 t) (iblk m c 1 t) (iblk m c 4 t) (iblk m c 5 t) (iblk m c 6 t) (iblk m c 7 t) p) = (LstmArrays.pre (features (m ((c : Thread nD τ).loc main_arg0)) (m ((c : Thread nD τ).loc main_arg1)) (m ((c : Thread nD τ).loc main_arg4)) (m ((c : Thread nD τ).loc main_arg5))) (m ((c : Thread nD τ).loc main_arg2)) (m ((c : Thread nD τ).loc main_arg6)) (m ((c : Thread nD τ).loc main_arg7)) (m ((c : Thread nD τ).loc main_arg8)) (m ((c : Thread nD τ).loc main_arg9)) (row t p)) := by
  unfold Rows.pre LstmArrays.pre
  simp only [block0 m c t, block1 m c t, block4 m c t, block5 m c t, block6 m c t, block7 m c t]
  rw [found_features, V_main_arg2, found_wih, found_whh, found_bih, found_bhh]
  simp only [shapeCast_a_1a_apply]
  have e6 : ∀ (k : Fin 4) (q : Fin 512), transpose S4x512 [1, 0] (m ((c : Thread nD τ).loc main_arg6)) transposes_S512x4_S4x512_1_0 (ix2 k q)
      = (m ((c : Thread nD τ).loc main_arg6)) (ix2 q k) := fun k q => transpose_ix2_apply _ _ k q
  have e7 : ∀ (k : Fin 128) (q : Fin 512), transpose S128x512 [1, 0] (m ((c : Thread nD τ).loc main_arg7)) transposes_S512x128_S128x512_1_0 (ix2 k q)
      = (m ((c : Thread nD τ).loc main_arg7)) (ix2 q k) := fun k q => transpose_ix2_apply _ _ k q
  simp only [e6, e7]

theorem cellRow_eq (c : Dev nD) (t : Fin cfg0.N) (p : Fin 2048) :
    (fun j : Fin 128 => iblk m c 2 t (ix2 p j)) = fun j => (m ((c : Thread nD τ).loc main_arg3)) (ix2 (row t p) j) := by
  funext j
  rw [block2 m c t p j, V_main_arg3]

theorem headRow_eq (c : Dev nD) (t : Fin cfg0.N) (u : Fin 1) :
    (fun j : Fin 128 => iblk m c 8 t (ix2 j u)) = fun j => (m ((c : Thread nD τ).loc main_arg10)) (ix2 (0 : Fin 1) j) := by
  obtain rfl : u = 0 := Subsingleton.elim u 0
  funext j
  rw [block8 m c t j 0, found_wup]
  exact transpose_ix2_apply _ _ j 0

theorem headBias_eq (c : Dev nD) (t : Fin cfg0.N) (u : Fin 1) :
    iblk m c 9 t (ix2 (0 : Fin 1) u) = (m ((c : Thread nD τ).loc main_arg11)) (ix1 (0 : Fin 1)) := by
  obtain rfl : u = 0 := Subsingleton.elim u 0
  rw [block9 m c t 0 0, found_bup]
  exact shapeCast_a_1a_apply _ _ 0 0

theorem momentum_eq (c : Dev nD) (t : Fin cfg0.N) (p : Fin 2048) (u : Fin 1) :
    iblk m c 3 t (ix2 p u) = (m ((c : Thread nD τ).loc main_arg4)) (ix1 (row t p)) := by
  rw [block3 m c t p u, found_momentum]
  exact ColumnLayout.shapeCast_a_a1_apply _ _ (row t p) u

/-! ## The whole-array functions -/

/-- The new hidden state as an N×128 array. -/
def hiddenG (c : Dev nD) : S524288x128.Idx → EReal := fun i => LstmArrays.hiddenArr (features (m ((c : Thread nD τ).loc main_arg0)) (m ((c : Thread nD τ).loc main_arg1)) (m ((c : Thread nD τ).loc main_arg4)) (m ((c : Thread nD τ).loc main_arg5))) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (i 0) (i 1)
/-- The new cell state as an N×128 array. -/
def cellG (c : Dev nD) : S524288x128.Idx → EReal := fun i => LstmArrays.cellArr (features (m ((c : Thread nD τ).loc main_arg0)) (m ((c : Thread nD τ).loc main_arg1)) (m ((c : Thread nD τ).loc main_arg4)) (m ((c : Thread nD τ).loc main_arg5))) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (i 0) (i 1)
/-- The update as an N×1 column. -/
def updateG (c : Dev nD) : S524288x1.Idx → EReal := fun i => LstmArrays.updateAt (features (m ((c : Thread nD τ).loc main_arg0)) (m ((c : Thread nD τ).loc main_arg1)) (m ((c : Thread nD τ).loc main_arg4)) (m ((c : Thread nD τ).loc main_arg5))) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0)
/-- The new momentum as an N×1 column. -/
def momentumG (c : Dev nD) : S524288x1.Idx → EReal := fun i => LstmArrays.momentumAt (features (m ((c : Thread nD τ).loc main_arg0)) (m ((c : Thread nD τ).loc main_arg1)) (m ((c : Thread nD τ).loc main_arg4)) (m ((c : Thread nD τ).loc main_arg5))) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0)

/-! ## What a point writes back -/

theorem emb11 (t : Fin cfg0.N) (p : Fin 2048) (j : Fin 128) : ((cfg0.win 11).blk t).view.emb (ix2 p j) = ix2 (row t p) j := by
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  refine funext fun a => Fin.ext ?_
  match a with
  | ⟨0, _⟩ => show win0_11.index t (0 : Fin 2) * 2048 + 1 * p.val = t.val * 2048 + p.val; omega
  | ⟨1, _⟩ => show win0_11.index t (1 : Fin 2) * 128 + 1 * j.val = j.val; omega
theorem emb12 (t : Fin cfg0.N) (p : Fin 2048) (j : Fin 128) : ((cfg0.win 12).blk t).view.emb (ix2 p j) = ix2 (row t p) j := by
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  refine funext fun a => Fin.ext ?_
  match a with
  | ⟨0, _⟩ => show win0_12.index t (0 : Fin 2) * 2048 + 1 * p.val = t.val * 2048 + p.val; omega
  | ⟨1, _⟩ => show win0_12.index t (1 : Fin 2) * 128 + 1 * j.val = j.val; omega
theorem emb10 (t : Fin cfg0.N) (p : Fin 2048) (u : Fin 1) : ((cfg0.win 10).blk t).view.emb (ix2 p u) = ix2 (row t p) u := by
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  refine funext fun a => Fin.ext ?_
  match a with
  | ⟨0, _⟩ => show win0_10.index t (0 : Fin 2) * 2048 + 1 * p.val = t.val * 2048 + p.val; omega
  | ⟨1, _⟩ => show win0_10.index t (1 : Fin 2) * 1 + 1 * u.val = u.val; omega
theorem emb13 (t : Fin cfg0.N) (p : Fin 2048) (u : Fin 1) : ((cfg0.win 13).blk t).view.emb (ix2 p u) = ix2 (row t p) u := by
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  refine funext fun a => Fin.ext ?_
  match a with
  | ⟨0, _⟩ => show win0_13.index t (0 : Fin 2) * 2048 + 1 * p.val = t.val * 2048 + p.val; omega
  | ⟨1, _⟩ => show win0_13.index t (1 : Fin 2) * 1 + 1 * u.val = u.val; omega

/-- Point `t` writes back rows `2048·t …` of the new hidden state. -/
theorem flushed_hidden (c : Dev nD) (t : Fin cfg0.N) :
    (dats m 0 c).flushed 11 t = ((cfg0.win 11).blk t).view.read (Elt Ideal) (hiddenG m c) := by
  show (cfg0.win 11).cut (grid0.coords t) ((dats m 0 c).after 11 t) = _
  rw [after11]
  funext y
  obtain ⟨p, j, rfl⟩ : ∃ (p : Fin 2048) (j : Fin 128), y = ix2 p j := ⟨y 0, y 1, eq_ix2 y⟩
  show cellHidden (iblk m c 0 t) (iblk m c 1 t) (iblk m c 2 t) (iblk m c 3 t) (iblk m c 4 t) (iblk m c 5 t) (iblk m c 6 t) (iblk m c 7 t) (iblk m c 8 t) (iblk m c 9 t) (ix2 p j) = hiddenG m c (((cfg0.win 11).blk t).view.emb (ix2 p j))
  rw [emb11 t p j, Rows.hidden_at (iblk m c 0 t) (iblk m c 1 t) (iblk m c 2 t) (iblk m c 3 t) (iblk m c 4 t) (iblk m c 5 t) (iblk m c 6 t) (iblk m c 7 t) (iblk m c 8 t) (iblk m c 9 t) p j, pre_eq m c t p, cellRow_eq m c t p]
  rfl

/-- Point `t` writes back rows `2048·t …` of the new cell state. -/
theorem flushed_cell (c : Dev nD) (t : Fin cfg0.N) :
    (dats m 0 c).flushed 12 t = ((cfg0.win 12).blk t).view.read (Elt Ideal) (cellG m c) := by
  show (cfg0.win 12).cut (grid0.coords t) ((dats m 0 c).after 12 t) = _
  rw [after12]
  funext y
  obtain ⟨p, j, rfl⟩ : ∃ (p : Fin 2048) (j : Fin 128), y = ix2 p j := ⟨y 0, y 1, eq_ix2 y⟩
  show cellState (iblk m c 0 t) (iblk m c 1 t) (iblk m c 2 t) (iblk m c 3 t) (iblk m c 4 t) (iblk m c 5 t) (iblk m c 6 t) (iblk m c 7 t) (iblk m c 8 t) (iblk m c 9 t) (ix2 p j) = cellG m c (((cfg0.win 12).blk t).view.emb (ix2 p j))
  rw [emb12 t p j, Rows.state_at (iblk m c 0 t) (iblk m c 1 t) (iblk m c 2 t) (iblk m c 3 t) (iblk m c 4 t) (iblk m c 5 t) (iblk m c 6 t) (iblk m c 7 t) (iblk m c 8 t) (iblk m c 9 t) p j, pre_eq m c t p, cellRow_eq m c t p]
  rfl

/-- Point `t` writes back rows `2048·t …` of the update column. -/
theorem flushed_update (c : Dev nD) (t : Fin cfg0.N) :
    (dats m 0 c).flushed 10 t = ((cfg0.win 10).blk t).view.read (Elt Ideal) (updateG m c) := by
  show (cfg0.win 10).cut (grid0.coords t) ((dats m 0 c).after 10 t) = _
  rw [after10]
  funext y
  obtain ⟨p, u, rfl⟩ : ∃ (p : Fin 2048) (u : Fin 1), y = ix2 p u := ⟨y 0, y 1, eq_ix2 y⟩
  show cellUpdate (iblk m c 0 t) (iblk m c 1 t) (iblk m c 2 t) (iblk m c 3 t) (iblk m c 4 t) (iblk m c 5 t) (iblk m c 6 t) (iblk m c 7 t) (iblk m c 8 t) (iblk m c 9 t) (ix2 p u) = updateG m c (((cfg0.win 10).blk t).view.emb (ix2 p u))
  rw [emb10 t p u, Rows.update_at (iblk m c 0 t) (iblk m c 1 t) (iblk m c 2 t) (iblk m c 3 t) (iblk m c 4 t) (iblk m c 5 t) (iblk m c 6 t) (iblk m c 7 t) (iblk m c 8 t) (iblk m c 9 t) p u, pre_eq m c t p, cellRow_eq m c t p, headRow_eq m c t u, headBias_eq m c t u]
  rfl

/-- Point `t` writes back rows `2048·t …` of the momentum column. -/
theorem flushed_momentum (c : Dev nD) (t : Fin cfg0.N) :
    (dats m 0 c).flushed 13 t = ((cfg0.win 13).blk t).view.read (Elt Ideal) (momentumG m c) := by
  show (cfg0.win 13).cut (grid0.coords t) ((dats m 0 c).after 13 t) = _
  rw [after13]
  funext y
  obtain ⟨p, u, rfl⟩ : ∃ (p : Fin 2048) (u : Fin 1), y = ix2 p u := ⟨y 0, y 1, eq_ix2 y⟩
  show cellMomentum (iblk m c 0 t) (iblk m c 1 t) (iblk m c 2 t) (iblk m c 3 t) (iblk m c 4 t) (iblk m c 5 t) (iblk m c 6 t) (iblk m c 7 t) (iblk m c 8 t) (iblk m c 9 t) (ix2 p u) = momentumG m c (((cfg0.win 13).blk t).view.emb (ix2 p u))
  rw [emb13 t p u, Rows.momentum_at (iblk m c 0 t) (iblk m c 1 t) (iblk m c 2 t) (iblk m c 3 t) (iblk m c 4 t) (iblk m c 5 t) (iblk m c 6 t) (iblk m c 7 t) (iblk m c 8 t) (iblk m c 9 t) p u, pre_eq m c t p, cellRow_eq m c t p, headRow_eq m c t u, headBias_eq m c t u, momentum_eq m c t p u]
  rfl

/-! ## The 256 blocks tile the rows -/

theorem mem_blk10 (t : Fin cfg0.N) (i : S524288x1.Idx) :
    i ∈ ((cfg0.win 10).blk t).view.set ↔ ∀ a : Fin 2, win0_10.index t a * S2048x1.size a ≤ (i a).val ∧ (i a).val < win0_10.index t a * S2048x1.size a + S2048x1.size a := by
  show i ∈ ((View.whole main_v12_0).slice (win0_10.rect t)).set ↔ _
  rw [View.set_slice_whole, Rect.mem_set_unit]
  exact Iff.rfl

/-- Row `r` lies in block `r / 2048`. -/
theorem cover10 (i : S524288x1.Idx) : ∃ t : Fin cfg0.N, (cfg0.win 10).flush t = true ∧ i ∈ ((cfg0.win 10).blk t).view.set := by
  have hi0 : (i 0).val < 524288 := (i 0).isLt
  have hi1 : (i 1).val < 1 := (i 1).isLt
  obtain ⟨t, ht⟩ : ∃ t : Fin cfg0.N, t.val = (i 0).val / 2048 := ⟨⟨(i 0).val / 2048, by rw [show cfg0.N = 256 from N_0]; omega⟩, rfl⟩
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  refine ⟨t, flush0_10 t, ?_⟩
  rw [mem_blk10]
  intro a
  match a with
  | ⟨0, _⟩ => show win0_10.index t (0 : Fin 2) * 2048 ≤ (i 0).val ∧ (i 0).val < win0_10.index t (0 : Fin 2) * 2048 + 2048; omega
  | ⟨1, _⟩ => show win0_10.index t (1 : Fin 2) * 1 ≤ (i 1).val ∧ (i 1).val < win0_10.index t (1 : Fin 2) * 1 + 1; omega

theorem mem_blk11 (t : Fin cfg0.N) (i : S524288x128.Idx) :
    i ∈ ((cfg0.win 11).blk t).view.set ↔ ∀ a : Fin 2, win0_11.index t a * S2048x128.size a ≤ (i a).val ∧ (i a).val < win0_11.index t a * S2048x128.size a + S2048x128.size a := by
  show i ∈ ((View.whole main_v12_1).slice (win0_11.rect t)).set ↔ _
  rw [View.set_slice_whole, Rect.mem_set_unit]
  exact Iff.rfl

/-- Row `r` lies in block `r / 2048`. -/
theorem cover11 (i : S524288x128.Idx) : ∃ t : Fin cfg0.N, (cfg0.win 11).flush t = true ∧ i ∈ ((cfg0.win 11).blk t).view.set := by
  have hi0 : (i 0).val < 524288 := (i 0).isLt
  have hi1 : (i 1).val < 128 := (i 1).isLt
  obtain ⟨t, ht⟩ : ∃ t : Fin cfg0.N, t.val = (i 0).val / 2048 := ⟨⟨(i 0).val / 2048, by rw [show cfg0.N = 256 from N_0]; omega⟩, rfl⟩
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  refine ⟨t, flush0_11 t, ?_⟩
  rw [mem_blk11]
  intro a
  match a with
  | ⟨0, _⟩ => show win0_11.index t (0 : Fin 2) * 2048 ≤ (i 0).val ∧ (i 0).val < win0_11.index t (0 : Fin 2) * 2048 + 2048; omega
  | ⟨1, _⟩ => show win0_11.index t (1 : Fin 2) * 128 ≤ (i 1).val ∧ (i 1).val < win0_11.index t (1 : Fin 2) * 128 + 128; omega

theorem mem_blk12 (t : Fin cfg0.N) (i : S524288x128.Idx) :
    i ∈ ((cfg0.win 12).blk t).view.set ↔ ∀ a : Fin 2, win0_12.index t a * S2048x128.size a ≤ (i a).val ∧ (i a).val < win0_12.index t a * S2048x128.size a + S2048x128.size a := by
  show i ∈ ((View.whole main_v12_2).slice (win0_12.rect t)).set ↔ _
  rw [View.set_slice_whole, Rect.mem_set_unit]
  exact Iff.rfl

/-- Row `r` lies in block `r / 2048`. -/
theorem cover12 (i : S524288x128.Idx) : ∃ t : Fin cfg0.N, (cfg0.win 12).flush t = true ∧ i ∈ ((cfg0.win 12).blk t).view.set := by
  have hi0 : (i 0).val < 524288 := (i 0).isLt
  have hi1 : (i 1).val < 128 := (i 1).isLt
  obtain ⟨t, ht⟩ : ∃ t : Fin cfg0.N, t.val = (i 0).val / 2048 := ⟨⟨(i 0).val / 2048, by rw [show cfg0.N = 256 from N_0]; omega⟩, rfl⟩
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  refine ⟨t, flush0_12 t, ?_⟩
  rw [mem_blk12]
  intro a
  match a with
  | ⟨0, _⟩ => show win0_12.index t (0 : Fin 2) * 2048 ≤ (i 0).val ∧ (i 0).val < win0_12.index t (0 : Fin 2) * 2048 + 2048; omega
  | ⟨1, _⟩ => show win0_12.index t (1 : Fin 2) * 128 ≤ (i 1).val ∧ (i 1).val < win0_12.index t (1 : Fin 2) * 128 + 128; omega

theorem mem_blk13 (t : Fin cfg0.N) (i : S524288x1.Idx) :
    i ∈ ((cfg0.win 13).blk t).view.set ↔ ∀ a : Fin 2, win0_13.index t a * S2048x1.size a ≤ (i a).val ∧ (i a).val < win0_13.index t a * S2048x1.size a + S2048x1.size a := by
  show i ∈ ((View.whole main_v12_3).slice (win0_13.rect t)).set ↔ _
  rw [View.set_slice_whole, Rect.mem_set_unit]
  exact Iff.rfl

/-- Row `r` lies in block `r / 2048`. -/
theorem cover13 (i : S524288x1.Idx) : ∃ t : Fin cfg0.N, (cfg0.win 13).flush t = true ∧ i ∈ ((cfg0.win 13).blk t).view.set := by
  have hi0 : (i 0).val < 524288 := (i 0).isLt
  have hi1 : (i 1).val < 1 := (i 1).isLt
  obtain ⟨t, ht⟩ : ∃ t : Fin cfg0.N, t.val = (i 0).val / 2048 := ⟨⟨(i 0).val / 2048, by rw [show cfg0.N = 256 from N_0]; omega⟩, rfl⟩
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  refine ⟨t, flush0_13 t, ?_⟩
  rw [mem_blk13]
  intro a
  match a with
  | ⟨0, _⟩ => show win0_13.index t (0 : Fin 2) * 2048 ≤ (i 0).val ∧ (i 0).val < win0_13.index t (0 : Fin 2) * 2048 + 2048; omega
  | ⟨1, _⟩ => show win0_13.index t (1 : Fin 2) * 1 ≤ (i 1).val ∧ (i 1).val < win0_13.index t (1 : Fin 2) * 1 + 1; omega

/-! ## The arrays after the run -/

theorem final_update (c : Dev nD) : (dats m 0 c).arrAt 10 cfg0.N = updateG m c :=
  (dats m 0 c).arrAt_eq_of_cover 10 (updateG m c) (fun t _ => flushed_update m c t) cover10
theorem final_hidden (c : Dev nD) : (dats m 0 c).arrAt 11 cfg0.N = hiddenG m c :=
  (dats m 0 c).arrAt_eq_of_cover 11 (hiddenG m c) (fun t _ => flushed_hidden m c t) cover11
theorem final_cell (c : Dev nD) : (dats m 0 c).arrAt 12 cfg0.N = cellG m c :=
  (dats m 0 c).arrAt_eq_of_cover 12 (cellG m c) (fun t _ => flushed_cell m c t) cover12
theorem final_momentum (c : Dev nD) : (dats m 0 c).arrAt 13 cfg0.N = momentumG m c :=
  (dats m 0 c).arrAt_eq_of_cover 13 (momentumG m c) (fun t _ => flushed_momentum m c t) cover13

/-! ## The two flattening lines -/

/-- The update as a vector. -/
def updateVec (c : Dev nD) : S524288.Idx → EReal := fun i => LstmArrays.updateAt (features (m ((c : Thread nD τ).loc main_arg0)) (m ((c : Thread nD τ).loc main_arg1)) (m ((c : Thread nD τ).loc main_arg4)) (m ((c : Thread nD τ).loc main_arg5))) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0)
/-- The new momentum as a vector. -/
def momentumVec (c : Dev nD) : S524288.Idx → EReal := fun i => LstmArrays.momentumAt (features (m ((c : Thread nD τ).loc main_arg0)) (m ((c : Thread nD τ).loc main_arg1)) (m ((c : Thread nD τ).loc main_arg4)) (m ((c : Thread nD τ).loc main_arg5))) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0)

/-- An N×1 column read as a vector: entry `r` is the column's entry in row `r`. -/
theorem flat_apply (G : S524288x1.Idx → EReal) (r : Fin 524288) :
    shapeCast S524288 G shapeCasts_S524288x1_S524288 (ix1 r) = G (ix2 r (0 : Fin 1)) :=
  shapeCast_apply G shapeCasts_S524288x1_S524288 (ix1 r) (ix2 r (0 : Fin 1))
    (by rw [Shape.rowMajor_val_two, Shape.rowMajor_val_one]; show r.val * 1 + 0 = r.val; omega)

theorem flat_update (c : Dev nD) : shapeCast S524288 (updateG m c) shapeCasts_S524288x1_S524288 = updateVec m c := by
  funext i
  obtain ⟨r, rfl⟩ : ∃ r : Fin 524288, i = ix1 r := ⟨i 0, eq_ix1 i⟩
  exact (flat_apply (updateG m c) r).trans rfl
theorem flat_momentum (c : Dev nD) : shapeCast S524288 (momentumG m c) shapeCasts_S524288x1_S524288 = momentumVec m c := by
  funext i
  obtain ⟨r, rfl⟩ : ∃ r : Fin 524288, i = ix1 r := ⟨i 0, eq_ix1 i⟩
  exact (flat_apply (momentumG m c) r).trans rfl

theorem tail_update (c : Dev nD) :
    Pipeline.afterTail₀ cfgs (dats m) 0 (V0 m) [hostOps1] c main_v13 = shapeCast S524288 (updateG m c) shapeCasts_S524288x1_S524288 := by
  unfold Pipeline.afterTail₀
  show StableHlo.after hostOps1 _ (Proc.devRef .tc main_v13) = _
  after_results
  rw [Pipeline.withArrays_arr spec0 launch0.win.arr_inj c _ _ 10, final_update]
  rfl
theorem tail_momentum (c : Dev nD) :
    Pipeline.afterTail₀ cfgs (dats m) 0 (V0 m) [hostOps1] c main_v14 = shapeCast S524288 (momentumG m c) shapeCasts_S524288x1_S524288 := by
  unfold Pipeline.afterTail₀
  show StableHlo.after hostOps1 _ (Proc.devRef .tc main_v14) = _
  after_results
  rw [Pipeline.withArrays_arr spec0 launch0.win.arr_inj c _ _ 13, final_momentum]
  rfl

/-! ## The run, with every result named -/

theorem run : θ_run defs (onTc (τ := τ) (main (F := Ideal))) ⟨m, fun _ => 0, ρ⟩ (fun r => ∀ c : Dev nD,
      r.2.mem ((c.tc : Thread nD τ).loc main_v13) = updateVec m c
      ∧ r.2.mem ((c.tc : Thread nD τ).loc main_v12_1) = hiddenG m c
      ∧ r.2.mem ((c.tc : Thread nD τ).loc main_v12_2) = cellG m c
      ∧ r.2.mem ((c.tc : Thread nD τ).loc main_v14) = momentumVec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h c).2 main_v13 (Pipeline.mem_restRefs_of main_v13 (by decide) (by decide))).trans ((tail_update m c).trans (flat_update m c)),
      ((h c).1 11).trans (final_hidden m c),
      ((h c).1 12).trans (final_cell m c),
      ((h c).2 main_v14 (Pipeline.mem_restRefs_of main_v14 (by decide) (by decide))).trans ((tail_momentum m c).trans (flat_momentum m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩) (run_main m ρ)

end Cert.KernelIdeal.Arrays

end
-- ==== Proof.ReferenceRows.lean ====
/-
  The reference LSTM step read one row at a time.

  Every element of the reference's four results at row `r` is a function of row `r` of the per-row inputs and of the
  weights.  The pre-activations of the row are the 512 columns
    pre q = Σ_k x(r,k) · W_ih(q,k) + b_ih(q) + Σ_k h(r,k) · W_hh(q,k) + b_hh(q),
  in the order the reference adds them, where `x(r, ·)` is row `r` of the four stacked per-parameter vectors.  The four
  gates are the column groups `[0,128)`, `[128,256)`, `[256,384)`, `[384,512)`; the reference spells the logistic
  function as `1 / (1 + e^(-x))` with `1` the single-precision word `0x3F800000`, which denotes the extended real one,
  so each gate is `Ideal.logistic` of its column.  The new cell state is `σ(f) · c + σ(i) · tanh(g)`, the new hidden
  state `σ(o) · tanh(c')`, the update the head's product `Σ_j h'(r,j) · W_up(0,j) + b_up(0)` (read through a reshape
  of an `[N, 1]` column to `[N]`), and the new momentum `0.9f · mom(r) + update` with `0.9f` kept as its word.
  Each theorem below identifies one result at row `r` with the row-level specification of `Cert.LstmRow` by
  rewriting with the generated read-at-an-index lemmas and identifying the composed index functions with the
  literal coordinates.
-/
import proofs.«130702_j19447611916789_1_alg».proof.Proof.Gen.ReferenceIdeal.Read
import proofs.«130702_j19447611916789_1_alg».proof.Proof.LstmRow
import Idealize.ShloMosaic.Lib.ValueLayout

noncomputable section

namespace Cert.ReferenceIdeal.Rows

open Cert.ReferenceIdeal Cert.ReferenceIdeal.Read Cert.LstmRow Idealize.ShloMosaic Idealize.ShloMosaic.ValueIdx

/-- The single-precision word `0x3F800000` denotes the extended real one. -/
theorem ofBits_one_f32 : Ideal.ofBits .f32 0x3F800000#32 = 1 := by
  simp [Ideal.ofBits, Ideal.ieee, -EReal.coe_mul]; norm_num

/-- The logistic function as the reference spells it, `1 / (1 + e^(-x))` with the word of one for `1`. -/
theorem logistic_spelled (x : EReal) :
    Ideal.div (Ideal.ofBits .f32 0x3F800000#32) (Ideal.ofBits .f32 0x3F800000#32 + Ideal.exp (-x)) = Ideal.logistic x := by
  rw [ofBits_one_f32]; rfl

variable (a0 a1 : (⟨S524288, .f32⟩ : BufTy).Contents (Elt Ideal)) (a2 a3 : (⟨S524288x128, .f32⟩ : BufTy).Contents (Elt Ideal))
  (a4 a5 : (⟨S524288, .f32⟩ : BufTy).Contents (Elt Ideal))
  (a6 : (⟨S512x4, .f32⟩ : BufTy).Contents (Elt Ideal)) (a7 : (⟨S512x128, .f32⟩ : BufTy).Contents (Elt Ideal))
  (a8 a9 : (⟨S512, .f32⟩ : BufTy).Contents (Elt Ideal)) (a10 : (⟨S1x128, .f32⟩ : BufTy).Contents (Elt Ideal)) (a11 : (⟨S1, .f32⟩ : BufTy).Contents (Elt Ideal))

/-- Row r's pre-activations as the reference adds them. -/
def pre (r : Fin 524288) : Fin 512 → EReal :=
  preBiasInBetween (fun k => val_main_v4 (F := Ideal) a0 a1 a4 a5 (ix2 r k)) (fun k => a2 (ix2 r k))
    (fun k q => a6 (ix2 q k)) (fun k q => a7 (ix2 q k)) (fun q => a8 (ix1 q)) (fun q => a9 (ix1 q))

/-! ### The composed index functions at literal coordinates -/

theorem lidx6_eq (r : Fin 524288) (q : Fin 512) (k : Fin 4) : lidx_main_v6 (ix2 r q) k = ix2 r k :=
  funext fun a => Fin.ext (by match a with | ⟨0, _⟩ => rfl | ⟨1, _⟩ => rfl)

theorem ridx6_eq (r : Fin 524288) (q : Fin 512) (k : Fin 4) : idx_main_v5 (ridx_main_v6 (ix2 r q) k) = ix2 q k :=
  funext fun a => Fin.ext (by match a with | ⟨0, _⟩ => rfl | ⟨1, _⟩ => rfl)

theorem lidx11_eq (r : Fin 524288) (q : Fin 512) (k : Fin 128) : lidx_main_v11 (ix2 r q) k = ix2 r k :=
  funext fun a => Fin.ext (by match a with | ⟨0, _⟩ => rfl | ⟨1, _⟩ => rfl)

theorem ridx11_eq (r : Fin 524288) (q : Fin 512) (k : Fin 128) : idx_main_v10 (ridx_main_v11 (ix2 r q) k) = ix2 q k :=
  funext fun a => Fin.ext (by match a with | ⟨0, _⟩ => rfl | ⟨1, _⟩ => rfl)

theorem bias8_eq (r : Fin 524288) (q : Fin 512) : idx_main_v7 (idx_main_v8 (ix2 r q)) = ix1 q :=
  funext fun a => Fin.ext (by match a with | ⟨0, _⟩ => rfl)

theorem bias14_eq (r : Fin 524288) (q : Fin 512) : idx_main_v13 (idx_main_v14 (ix2 r q)) = ix1 q :=
  funext fun a => Fin.ext (by match a with | ⟨0, _⟩ => rfl)

/-- The reference's pre-activation matrix at row `r`, column `q`. -/
theorem pre_at (r : Fin 524288) (q : Fin 512) :
    val_main_v15 (F := Ideal) a0 a1 a2 a4 a5 a6 a7 a8 a9 (ix2 r q) = pre a0 a1 a2 a4 a5 a6 a7 a8 a9 r q := by
  rw [val_main_v15_apply, val_main_v12_apply, val_main_v9_apply, val_main_v6_apply, val_main_v8_apply, val_main_v7_apply,
    val_main_v11_apply, val_main_v14_apply, val_main_v13_apply]
  simp only [val_main_v5_apply, val_main_v10_apply, lidx6_eq, ridx6_eq, lidx11_eq, ridx11_eq, bias8_eq, bias14_eq,
    Ideal.addf_def]
  unfold pre preBiasInBetween
  rfl

/-! ### The four gate slices -/

theorem idx16_eq (r : Fin 524288) (j : Fin 128) : idx_main_v16 (ix2 r j) = ix2 r (col 0 (by omega) j) :=
  funext fun a => Fin.ext (by match a with | ⟨0, _⟩ => rfl | ⟨1, _⟩ => exact (Nat.zero_add j.val).symm)

theorem idx17_eq (r : Fin 524288) (j : Fin 128) : idx_main_v17 (ix2 r j) = ix2 r (col 128 (by omega) j) :=
  funext fun a => Fin.ext (by match a with | ⟨0, _⟩ => rfl | ⟨1, _⟩ => rfl)

theorem idx18_eq (r : Fin 524288) (j : Fin 128) : idx_main_v18 (ix2 r j) = ix2 r (col 256 (by omega) j) :=
  funext fun a => Fin.ext (by match a with | ⟨0, _⟩ => rfl | ⟨1, _⟩ => rfl)

theorem idx19_eq (r : Fin 524288) (j : Fin 128) : idx_main_v19 (ix2 r j) = ix2 r (col 384 (by omega) j) :=
  funext fun a => Fin.ext (by match a with | ⟨0, _⟩ => rfl | ⟨1, _⟩ => rfl)

/-- The input gate's pre-activation is column `j` of the row. -/
theorem gate_i_at (r : Fin 524288) (j : Fin 128) :
    val_main_v16 (F := Ideal) a0 a1 a2 a4 a5 a6 a7 a8 a9 (ix2 r j) = pre a0 a1 a2 a4 a5 a6 a7 a8 a9 r (col 0 (by omega) j) := by
  rw [val_main_v16_apply, idx16_eq, pre_at]

/-- The forget gate's pre-activation is column `128 + j` of the row. -/
theorem gate_f_at (r : Fin 524288) (j : Fin 128) :
    val_main_v17 (F := Ideal) a0 a1 a2 a4 a5 a6 a7 a8 a9 (ix2 r j) = pre a0 a1 a2 a4 a5 a6 a7 a8 a9 r (col 128 (by omega) j) := by
  rw [val_main_v17_apply, idx17_eq, pre_at]

/-- The candidate's pre-activation is column `256 + j` of the row. -/
theorem gate_g_at (r : Fin 524288) (j : Fin 128) :
    val_main_v18 (F := Ideal) a0 a1 a2 a4 a5 a6 a7 a8 a9 (ix2 r j) = pre a0 a1 a2 a4 a5 a6 a7 a8 a9 r (col 256 (by omega) j) := by
  rw [val_main_v18_apply, idx18_eq, pre_at]

/-- The output gate's pre-activation is column `384 + j` of the row. -/
theorem gate_o_at (r : Fin 524288) (j : Fin 128) :
    val_main_v19 (F := Ideal) a0 a1 a2 a4 a5 a6 a7 a8 a9 (ix2 r j) = pre a0 a1 a2 a4 a5 a6 a7 a8 a9 r (col 384 (by omega) j) := by
  rw [val_main_v19_apply, idx19_eq, pre_at]

/-! ### The activations -/

/-- The input gate: the logistic function of its pre-activation. -/
theorem sig_i_at (r : Fin 524288) (j : Fin 128) :
    val_main_v25 (F := Ideal) a0 a1 a2 a4 a5 a6 a7 a8 a9 (ix2 r j)
      = Ideal.logistic (pre a0 a1 a2 a4 a5 a6 a7 a8 a9 r (col 0 (by omega) j)) := by
  rw [val_main_v25_apply, val_main_v24_apply, val_main_cst_0_apply, val_main_v23_apply, val_main_v22_apply, val_main_cst_apply,
    val_main_v21_apply, val_main_v20_apply, gate_i_at]
  exact logistic_spelled _

/-- The forget gate: the logistic function of its pre-activation. -/
theorem sig_f_at (r : Fin 524288) (j : Fin 128) :
    val_main_v31 (F := Ideal) a0 a1 a2 a4 a5 a6 a7 a8 a9 (ix2 r j)
      = Ideal.logistic (pre a0 a1 a2 a4 a5 a6 a7 a8 a9 r (col 128 (by omega) j)) := by
  rw [val_main_v31_apply, val_main_v30_apply, val_main_cst_2_apply, val_main_v29_apply, val_main_v28_apply, val_main_cst_1_apply,
    val_main_v27_apply, val_main_v26_apply, gate_f_at]
  exact logistic_spelled _

/-- The candidate: the hyperbolic tangent of its pre-activation. -/
theorem tanh_g_at (r : Fin 524288) (j : Fin 128) :
    val_main_v32 (F := Ideal) a0 a1 a2 a4 a5 a6 a7 a8 a9 (ix2 r j)
      = Ideal.tanh (pre a0 a1 a2 a4 a5 a6 a7 a8 a9 r (col 256 (by omega) j)) := by
  rw [val_main_v32_apply, gate_g_at]
  rfl

/-- The output gate: the logistic function of its pre-activation. -/
theorem sig_o_at (r : Fin 524288) (j : Fin 128) :
    val_main_v38 (F := Ideal) a0 a1 a2 a4 a5 a6 a7 a8 a9 (ix2 r j)
      = Ideal.logistic (pre a0 a1 a2 a4 a5 a6 a7 a8 a9 r (col 384 (by omega) j)) := by
  rw [val_main_v38_apply, val_main_v37_apply, val_main_cst_4_apply, val_main_v36_apply, val_main_v35_apply, val_main_cst_3_apply,
    val_main_v34_apply, val_main_v33_apply, gate_o_at]
  exact logistic_spelled _

/-! ### The new cell and hidden states -/

/-- The reference's new cell state at row `r`, hidden unit `j`. -/
theorem cell_at (r : Fin 524288) (j : Fin 128) :
    val_main_v41 (F := Ideal) a0 a1 a2 a3 a4 a5 a6 a7 a8 a9 (ix2 r j) = cellNew (pre a0 a1 a2 a4 a5 a6 a7 a8 a9 r) (fun j => a3 (ix2 r j)) j := by
  rw [val_main_v41_apply, val_main_v39_apply, val_main_v40_apply, sig_f_at, sig_i_at, tanh_g_at]
  rfl

/-- The reference's new hidden state at row `r`, hidden unit `j`. -/
theorem hidden_at (r : Fin 524288) (j : Fin 128) :
    val_main_v43 (F := Ideal) a0 a1 a2 a3 a4 a5 a6 a7 a8 a9 (ix2 r j) = hiddenNew (pre a0 a1 a2 a4 a5 a6 a7 a8 a9 r) (fun j => a3 (ix2 r j)) j := by
  rw [val_main_v43_apply, val_main_v42_apply, sig_o_at, cell_at]
  rfl

/-! ### The update head and the momentum -/

theorem idx49_eq (r : Fin 524288) : idx_main_v49 (ix1 r) = ix2 r (0 : Fin 1) :=
  funext fun a => Fin.ext (by match a with | ⟨0, _⟩ => exact Nat.div_one r.val | ⟨1, _⟩ => rfl)

theorem lidx45_eq (r : Fin 524288) (k : Fin 128) : lidx_main_v45 (ix2 r (0 : Fin 1)) k = ix2 r k :=
  funext fun a => Fin.ext (by match a with | ⟨0, _⟩ => rfl | ⟨1, _⟩ => rfl)

theorem ridx45_eq (r : Fin 524288) (k : Fin 128) : idx_main_v44 (ridx_main_v45 (ix2 r (0 : Fin 1)) k) = ix2 (0 : Fin 1) k :=
  funext fun a => Fin.ext (by match a with | ⟨0, _⟩ => rfl | ⟨1, _⟩ => rfl)

theorem bias47_eq (r : Fin 524288) : idx_main_v46 (idx_main_v47 (ix2 r (0 : Fin 1))) = ix1 (0 : Fin 1) :=
  funext fun a => Fin.ext (by match a with | ⟨0, _⟩ => rfl)

/-- The reference's update at row `r`: the head applied to the row's new hidden state. -/
theorem update_at (r : Fin 524288) :
    val_main_v49 (F := Ideal) a0 a1 a2 a3 a4 a5 a6 a7 a8 a9 a10 a11 (ix1 r)
      = update (pre a0 a1 a2 a4 a5 a6 a7 a8 a9 r) (fun j => a3 (ix2 r j)) (fun j => a10 (ix2 (0 : Fin 1) j)) (a11 (ix1 (0 : Fin 1))) := by
  rw [val_main_v49_apply, idx49_eq, val_main_v48_apply, val_main_v45_apply, val_main_v47_apply, val_main_v46_apply, bias47_eq]
  simp only [val_main_v44_apply, lidx45_eq, ridx45_eq, hidden_at, Ideal.addf_def]
  unfold update
  rfl

/-- The reference's new momentum at row `r`. -/
theorem momentum_at (r : Fin 524288) :
    val_main_v52 (F := Ideal) a0 a1 a2 a3 a4 a5 a6 a7 a8 a9 a10 a11 (ix1 r)
      = momentumNew (pre a0 a1 a2 a4 a5 a6 a7 a8 a9 r) (fun j => a3 (ix2 r j)) (fun j => a10 (ix2 (0 : Fin 1) j)) (a11 (ix1 (0 : Fin 1))) (a4 (ix1 r)) := by
  rw [val_main_v52_apply, val_main_v51_apply, val_main_v50_apply, val_main_cst_5_apply, update_at]
  rfl

end Cert.ReferenceIdeal.Rows

end
-- ==== Proof.ReferenceArrays.lean ====
/-
  The reference LSTM step as whole arrays.

  Each of the reference's four results, as a function of its index, is the row function of `Cert.LstmArrays` at the
  index's coordinates: the N×128 new hidden and cell states at `(i 0, i 1)`, the update and the new momentum at
  `i 0`.  Row by row this is the reading of `Cert.ReferenceIdeal.Rows`; the only difference is the order in which the
  four summands of a pre-activation are added (the reference adds each bias right after its matrix product, the
  array specification adds the two products first), and addition on the extended reals is commutative and
  associative, so the two pre-activations are equal.
-/
import proofs.«130702_j19447611916789_1_alg».proof.Proof.ReferenceRows
import proofs.«130702_j19447611916789_1_alg».proof.Proof.LstmArrays

noncomputable section

namespace Cert.ReferenceIdeal.Arrays

open Cert.ReferenceIdeal Cert.ReferenceIdeal.Read Cert.LstmRow Idealize.ShloMosaic Idealize.ShloMosaic.ValueIdx

variable (a0 a1 : (⟨S524288, .f32⟩ : BufTy).Contents (Elt Ideal)) (a2 a3 : (⟨S524288x128, .f32⟩ : BufTy).Contents (Elt Ideal))
  (a4 a5 : (⟨S524288, .f32⟩ : BufTy).Contents (Elt Ideal))
  (a6 : (⟨S512x4, .f32⟩ : BufTy).Contents (Elt Ideal)) (a7 : (⟨S512x128, .f32⟩ : BufTy).Contents (Elt Ideal))
  (a8 a9 : (⟨S512, .f32⟩ : BufTy).Contents (Elt Ideal)) (a10 : (⟨S1x128, .f32⟩ : BufTy).Contents (Elt Ideal)) (a11 : (⟨S1, .f32⟩ : BufTy).Contents (Elt Ideal))

/-- Row `r`'s pre-activations in the reference's order of addition are those with the two products added first. -/
theorem pre_eq (r : Fin 524288) :
    Rows.pre a0 a1 a2 a4 a5 a6 a7 a8 a9 r
      = Cert.LstmArrays.pre (val_main_v4 (F := Ideal) a0 a1 a4 a5) a2 a6 a7 a8 a9 r := by
  unfold Rows.pre Cert.LstmArrays.pre
  exact preBiasInBetween_eq _ _ _ _ _ _

/-- The reference's new hidden state is the array specification's. -/
theorem hidden_eq : val_main_v43 (F := Ideal) a0 a1 a2 a3 a4 a5 a6 a7 a8 a9
    = fun i => Cert.LstmArrays.hiddenArr (val_main_v4 (F := Ideal) a0 a1 a4 a5) a2 a3 a6 a7 a8 a9 (i 0) (i 1) := by
  funext i
  obtain ⟨r, j, rfl⟩ : ∃ (r : Fin 524288) (j : Fin 128), i = ix2 r j := ⟨i 0, i 1, eq_ix2 i⟩
  rw [Rows.hidden_at, pre_eq]
  rfl

/-- The reference's new cell state is the array specification's. -/
theorem cell_eq : val_main_v41 (F := Ideal) a0 a1 a2 a3 a4 a5 a6 a7 a8 a9
    = fun i => Cert.LstmArrays.cellArr (val_main_v4 (F := Ideal) a0 a1 a4 a5) a2 a3 a6 a7 a8 a9 (i 0) (i 1) := by
  funext i
  obtain ⟨r, j, rfl⟩ : ∃ (r : Fin 524288) (j : Fin 128), i = ix2 r j := ⟨i 0, i 1, eq_ix2 i⟩
  rw [Rows.cell_at, pre_eq]
  rfl

/-- The reference's update is the array specification's. -/
theorem update_eq : val_main_v49 (F := Ideal) a0 a1 a2 a3 a4 a5 a6 a7 a8 a9 a10 a11
    = fun i => Cert.LstmArrays.updateAt (val_main_v4 (F := Ideal) a0 a1 a4 a5) a2 a3 a6 a7 a8 a9 a10 a11 (i 0) := by
  funext i
  obtain ⟨r, rfl⟩ : ∃ r : Fin 524288, i = ix1 r := ⟨i 0, eq_ix1 i⟩
  rw [Rows.update_at, pre_eq]
  rfl

/-- The reference's new momentum is the array specification's. -/
theorem momentum_eq : val_main_v52 (F := Ideal) a0 a1 a2 a3 a4 a5 a6 a7 a8 a9 a10 a11
    = fun i => Cert.LstmArrays.momentumAt (val_main_v4 (F := Ideal) a0 a1 a4 a5) a2 a3 a4 a6 a7 a8 a9 a10 a11 (i 0) := by
  funext i
  obtain ⟨r, rfl⟩ : ∃ r : Fin 524288, i = ix1 r := ⟨i 0, eq_ix1 i⟩
  rw [Rows.momentum_at, pre_eq]
  rfl

end Cert.ReferenceIdeal.Arrays

end
-- ==== Proof.lean ====
/-
  The kernel: one LSTM-cell step over N = 524288 independent rows (4 input features, 128 hidden units), gridded
  in 256 blocks of 2048 rows, with the weights, biases and head held whole; the reference: the same step as plain
  array operations over all rows at once.

  On the extended reals both compute, row by row, the pre-activations `x·Wihᵀ + h·Whhᵀ + b_ih + b_hh` (the kernel
  adds the two products first, the reference adds each bias right after its product; addition is commutative
  and associative, so no finiteness is needed), the gates `σ`, `σ`, `tanh`, `σ` of the four column groups (the
  kernel's logistic and the reference's `1 / (1 + e^(-x))` are one function), `c' = f·c + i·g`,
  `h' = o·tanh c'`, `update = h'·w_up + b_up` and `mom' = 0.9f·mom + update` with the same single-precision word
  for nine tenths.  The narrowing of the kernel's second product's operands is the identity on the extended reals.

  The frames of the two kernel programs: the run of @main around the gridded region (`RegionRun`, the same text at
  both instances).  The kernel's results as whole-array functions of the arguments: `Arrays`.  The reference's
  results as the same functions: `ReferenceRows`, `ReferenceArrays` over its run read back.
-/
import proofs.«130702_j19447611916789_1_alg».proof.Defs
import proofs.«130702_j19447611916789_1_alg».proof.Proof.Gen.Kernel
import proofs.«130702_j19447611916789_1_alg».proof.Proof.Gen.KernelIdeal
import proofs.«130702_j19447611916789_1_alg».proof.Proof.Gen.ReferenceIdeal
import proofs.«130702_j19447611916789_1_alg».proof.Proof.Gen.Pre_finite_inputs
import proofs.«130702_j19447611916789_1_alg».proof.Proof.Gen.ReferenceIdeal.Run
import proofs.«130702_j19447611916789_1_alg».proof.Proof.Gen.ReferenceIdeal.Read
import proofs.«130702_j19447611916789_1_alg».proof.Proof.RegionRunWords
import proofs.«130702_j19447611916789_1_alg».proof.Proof.RegionRunIdeal
import proofs.«130702_j19447611916789_1_alg».proof.Proof.ArraysIdeal
import proofs.«130702_j19447611916789_1_alg».proof.Proof.ReferenceArrays
import Idealize.ShloMosaic.Adequacy
import Idealize.ShloMosaic.Init

noncomputable section

namespace Cert.Proof

open Idealize.ShloMosaic Idealize.ShloMosaic.TcCoe Idealize.SL.Sem

/-- The two programs build the feature matrix by the same four column views joined side by side. -/
theorem features_eq (a0 a1 a4 a5 : (⟨Cert.KernelIdeal.S524288, .f32⟩ : BufTy).Contents (Elt Ideal)) :
    Cert.ReferenceIdeal.Read.val_main_v4 (F := Ideal) a0 a1 a4 a5 = Cert.KernelIdeal.Arrays.features a0 a1 a4 a5 := rfl

section Meet

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)))

include hagree

/-- The reference's update is the kernel's. -/
theorem update_meets (c : Dev Cert.KernelIdeal.nD) :
    Cert.ReferenceIdeal.Value.res_main_v49 m' c = Cert.KernelIdeal.Arrays.updateVec m c := by
  obtain ⟨h0, h1, h2, h3, h4, h5, h6, h7, h8, h9, h10, h11⟩ := hagree c
  rw [Cert.ReferenceIdeal.Read.val_main_v49_eq, Cert.ReferenceIdeal.Arrays.update_eq, h0, h1, h2, h3, h4, h5, h6, h7, h8, h9, h10, h11, features_eq]
  rfl

/-- The reference's new hidden state is the kernel's. -/
theorem hidden_meets (c : Dev Cert.KernelIdeal.nD) :
    Cert.ReferenceIdeal.Value.res_main_v43 m' c = Cert.KernelIdeal.Arrays.hiddenG m c := by
  obtain ⟨h0, h1, h2, h3, h4, h5, h6, h7, h8, h9, h10, h11⟩ := hagree c
  rw [Cert.ReferenceIdeal.Read.val_main_v43_eq, Cert.ReferenceIdeal.Arrays.hidden_eq, h0, h1, h2, h3, h4, h5, h6, h7, h8, h9, features_eq]
  rfl

/-- The reference's new cell state is the kernel's. -/
theorem cell_meets (c : Dev Cert.KernelIdeal.nD) :
    Cert.ReferenceIdeal.Value.res_main_v41 m' c = Cert.KernelIdeal.Arrays.cellG m c := by
  obtain ⟨h0, h1, h2, h3, h4, h5, h6, h7, h8, h9, h10, h11⟩ := hagree c
  rw [Cert.ReferenceIdeal.Read.val_main_v41_eq, Cert.ReferenceIdeal.Arrays.cell_eq, h0, h1, h2, h3, h4, h5, h6, h7, h8, h9, features_eq]
  rfl

/-- The reference's new momentum is the kernel's. -/
theorem momentum_meets (c : Dev Cert.KernelIdeal.nD) :
    Cert.ReferenceIdeal.Value.res_main_v52 m' c = Cert.KernelIdeal.Arrays.momentumVec m c := by
  obtain ⟨h0, h1, h2, h3, h4, h5, h6, h7, h8, h9, h10, h11⟩ := hagree c
  rw [Cert.ReferenceIdeal.Read.val_main_v52_eq, Cert.ReferenceIdeal.Arrays.momentum_eq, h0, h1, h2, h3, h4, h5, h6, h7, h8, h9, h10, h11, features_eq]
  rfl

end Meet

theorem frame_words : Cert.frame_Kernel := fun m ρ _ => Cert.Kernel.RegionRun.frame m ρ
theorem frame_ideal : Cert.frame_KernelIdeal := fun m ρ _ => Cert.KernelIdeal.RegionRun.frame m ρ
theorem frame_reference : Cert.frame_ReferenceIdeal := fun m ρ _ =>
  (θ_run Cert.ReferenceIdeal.defs _ _).mono (fun _ h c => (h c).2.2.2.2) (Cert.ReferenceIdeal.Value.run (F := Ideal) m ρ)

/-- The idealizing pass rewrote nothing: the idealized kernel is the kernel's own text read on the extended reals. -/
theorem preserves : Cert.preserves_Kernel_KernelIdeal := trivial

/-- From memories agreeing on the arguments both programs end, the kernel at the whole-array functions of its
    arguments and the reference at the same functions of its own. -/
theorem algebraic : Cert.algebraic_KernelIdeal_ReferenceIdeal := by
  intro m ρ m' ρ' _ hagree
  refine ⟨fun c => Cert.KernelIdeal.Arrays.updateVec m c, fun c => Cert.KernelIdeal.Arrays.hiddenG m c,
    fun c => Cert.KernelIdeal.Arrays.cellG m c, fun c => Cert.KernelIdeal.Arrays.momentumVec m c,
    Cert.KernelIdeal.Arrays.run m ρ, ?_⟩
  exact (θ_run Cert.ReferenceIdeal.defs _ _).mono (fun _ h c =>
      ⟨(h c).1.trans (update_meets m m' hagree c), (h c).2.1.trans (hidden_meets m m' hagree c),
        (h c).2.2.1.trans (cell_meets m m' hagree c), (h c).2.2.2.1.trans (momentum_meets m m' hagree c), (h c).2.2.2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_words, frame_ideal, frame_reference, preserves, algebraic⟩

end Cert.Proof

end
